-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768x32x32 : Shape := ⟨4, ![64, 768, 32, 32]⟩
abbrev S100x768 : Shape := ⟨2, ![100, 768]⟩
abbrev S_ : Shape := ⟨0, ![]⟩

class Facts : Prop where
  bcast_S_S64x768x32x32 : S_.BroadcastsInDim S64x768x32x32 (![] : Fin 0 → Fin S64x768x32x32.rank)
  reducesTo_S64x768x32x32_S_d0_1_2_3 : S64x768x32x32.ReducesTo [0, 1, 2, 3] S_
  h_S_ : 0 < S_.numel
  bcast_S_S100x768 : S_.BroadcastsInDim S100x768 (![] : Fin 0 → Fin S100x768.rank)
  reducesTo_S100x768_S_d0_1 : S100x768.ReducesTo [0, 1] S_

variable [Facts]

def fn {F : FTy → Type} [FloatOps F] (main_arg0 : FVec F S64x768x32x32 .f32) (main_arg1 : FVec F S100x768 .f32) : IVec S_ 1 :=
  let main_v0 : FVec F S64x768x32x32 .f32 := Host.absf main_arg0
  let main_cst : FVec F S_ .f32 := constant S_ .f32 0x7F800000#32
  let main_v1 : FVec F S64x768x32x32 .f32 := broadcastInDim S64x768x32x32 ![] bcast_S_S64x768x32x32 main_cst
  let main_v2 : IVec S64x768x32x32 1 := cmpf .olt main_v0 main_v1
  let main_c : IVec S_ 1 := constantI S_ 1 1#1
  let main_v3 : IVec S_ 1 := (fun x v => Host.reduce IntOp.andi x v reducesTo_S64x768x32x32_S_d0_1_2_3 h_S_) main_v2 main_c
  let main_v4 : FVec F S100x768 .f32 := Host.absf main_arg1
  let main_cst_0 : FVec F S_ .f32 := constant S_ .f32 0x7F800000#32
  let main_v5 : FVec F S100x768 .f32 := broadcastInDim S100x768 ![] bcast_S_S100x768 main_cst_0
  let main_v6 : IVec S100x768 1 := cmpf .olt main_v4 main_v5
  let main_c_1 : IVec S_ 1 := constantI S_ 1 1#1
  let main_v7 : IVec S_ 1 := (fun x v => Host.reduce IntOp.andi x v reducesTo_S100x768_S_d0_1 h_S_) main_v6 main_c_1
  let main_v8 : IVec S_ 1 := andi main_v3 main_v7
  main_v8
-- ==== Kernel.lean ====
abbrev S64x768x32x32 : Shape := ⟨4, ![64, 768, 32, 32]⟩
abbrev S100x768 : Shape := ⟨2, ![100, 768]⟩
abbrev S64x768x1024 : Shape := ⟨3, ![64, 768, 1024]⟩
abbrev S_ : Shape := ⟨0, ![]⟩
abbrev S100 : Shape := ⟨1, ![100]⟩
abbrev S100x1 : Shape := ⟨2, ![100, 1]⟩
abbrev S768x100 : Shape := ⟨2, ![768, 100]⟩
abbrev S64x1024x100 : Shape := ⟨3, ![64, 1024, 100]⟩
abbrev S1x768x1024 : Shape := ⟨3, ![1, 768, 1024]⟩
abbrev S1x1024x100 : Shape := ⟨3, ![1, 1024, 100]⟩
abbrev S768x1024 : Shape := ⟨2, ![768, 1024]⟩
abbrev S1024 : Shape := ⟨1, ![1024]⟩
abbrev S1x1024 : Shape := ⟨2, ![1, 1024]⟩
abbrev S100x1024 : Shape := ⟨2, ![100, 1024]⟩
abbrev S1024x100 : Shape := ⟨2, ![1024, 100]⟩

abbrev nBuf : Space → Nat
  | .hbm => 17
  | .vmem => 8
  | .smem => 0
  | _ => 0

abbrev bufTy : (tb : Table) → Fin (tcTables nBuf tb) → BufTy
  | .hbm, ⟨0, _⟩ => ⟨S64x768x32x32, .f32⟩
  | .hbm, ⟨1, _⟩ => ⟨S100x768, .f32⟩
  | .hbm, ⟨2, _⟩ => ⟨S64x768x1024, .f32⟩
  | .hbm, ⟨3, _⟩ => ⟨S100x768, .f32⟩
  | .hbm, ⟨4, _⟩ => ⟨S_, .f32⟩
  | .hbm, ⟨5, _⟩ => ⟨S100, .f32⟩
  | .hbm, ⟨6, _⟩ => ⟨S100x1, .f32⟩
  | .hbm, ⟨7, _⟩ => ⟨S100x1, .f32⟩
  | .hbm, ⟨8, _⟩ => ⟨S_, .f32⟩
  | .hbm, ⟨9, _⟩ => ⟨S100x1, .f32⟩
  | .hbm, ⟨10, _⟩ => ⟨S100x1, .f32⟩
  | .hbm, ⟨11, _⟩ => ⟨S100x768, .f32⟩
  | .hbm, ⟨12, _⟩ => ⟨S100x768, .f32⟩
  | .hbm, ⟨13, _⟩ => ⟨S768x100, .f32⟩
  | .hbm, ⟨14, _⟩ => ⟨S64x768x1024, .f32⟩
  | .hbm, ⟨15, _⟩ => ⟨S64x1024x100, .f32⟩
  | .hbm, ⟨16, _⟩ => ⟨S64x768x32x32, .f32⟩
  | .local _ .vmem, ⟨0, _⟩ => ⟨S1x768x1024, .f32⟩
  | .local _ .vmem, ⟨1, _⟩ => ⟨S1x768x1024, .f32⟩
  | .local _ .vmem, ⟨2, _⟩ => ⟨S100x768, .f32⟩
  | .local _ .vmem, ⟨3, _⟩ => ⟨S768x100, .f32⟩
  | .local _ .vmem, ⟨4, _⟩ => ⟨S1x768x1024, .f32⟩
  | .local _ .vmem, ⟨5, _⟩ => ⟨S1x768x1024, .f32⟩
  | .local _ .vmem, ⟨6, _⟩ => ⟨S1x1024x100, .f32⟩
  | .local _ .vmem, ⟨7, _⟩ => ⟨S1x1024x100, .f32⟩
  | _, _ => ⟨S64x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x768x32x32_S64x768x1024 : S64x768x32x32.ShapeCasts S64x768x1024
  reducesTo_S100x768_S100_d1 : S100x768.ReducesTo [1] S100
  h_S_ : 0 < S_.numel
  bcast_S100_S100x1_0 : S100.BroadcastsInDim S100x1 (![0] : Fin 1 → Fin S100x1.rank)
  bcast_S_S100x1 : S_.BroadcastsInDim S100x1 (![] : Fin 0 → Fin S100x1.rank)
  bcast_S100x1_S100x768_0_1 : S100x1.BroadcastsInDim S100x768 (![0, 1] : Fin 2 → Fin S100x768.rank)
  transposes_S100x768_S768x100_1_0 : S100x768.Transposes [1, 0] S768x100
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  reduces_S768x1024_S1024 : S768x1024.Reduces [0] S1024
  shapeCasts_S1024_S1x1024 : S1024.ShapeCasts S1x1024
  inb_S100x768_S100x768_0_0 : ∀ a, (![0, 0] : Fin 2 → Nat) a + S100x768.size a ≤ S100x768.size a
  h_S100x768 : 0 < S100x768.numel
  shapeCasts_S100x768_S100x768 : S100x768.ShapeCasts S100x768
  broadcasts_S1x1024_S100x1024 : S1x1024.Broadcasts S100x1024
  reduces_S100x1024_S1024 : S100x1024.Reduces [0] S1024
  inb_S768x100_S768x100_0_0 : ∀ a, (![0, 0] : Fin 2 → Nat) a + S768x100.size a ≤ S768x100.size a
  h_S768x100 : 0 < S768x100.numel
  shapeCasts_S768x100_S768x100 : S768x100.ShapeCasts S768x100
  bitsLt_bf16_f32 : FTy.bits .bf16 < FTy.bits .f32
  shapeCasts_S768x1024_S1x768x1024 : S768x1024.ShapeCasts S1x768x1024
  transposes_S100x1024_p1_0_S1024x100 : S100x1024.Transposes [1, 0] S1024x100
  inb_S1x1024x100_S1x1024x100_0_0_0 : ∀ a, (![0, 0, 0] : Fin 3 → Nat) a + S1x1024x100.size a ≤ S1x1024x100.size a
  h_S1x1024x100 : 0 < S1x1024x100.numel
  shapeCasts_S1x1024x100_S1024x100 : S1x1024x100.ShapeCasts S1024x100
  shapeCasts_S1024x100_S1x1024x100 : S1024x100.ShapeCasts S1x1024x100
  shapeCasts_S64x768x1024_S64x768x32x32 : S64x768x1024.ShapeCasts S64x768x32x32
  dot_S100x768_S768x1024_S100x1024_1_0_0_1_n_n_wf : DotDims.WF S100x768 S768x1024 S100x1024 [1] [0] [0] [1] [] []
  dot_S768x100_S100x1024_S768x1024_1_0_0_1_n_n_wf : DotDims.WF S768x100 S100x1024 S768x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x1024.size a ≤ S64x768x1024.size a
  hwx0_0 : ∀ i : grid0.Coords, EltTy.bits .f32 = 32 ∨ (Rect.block (s := S64x768x1024) S1x768x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x768.size a ≤ S100x768.size a
  hwx0_1 : ∀ i : grid0.Coords, EltTy.bits .f32 = 32 ∨ (Rect.block (s := S100x768) S100x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x100.size a ≤ S768x100.size a
  hwx0_2 : ∀ i : grid0.Coords, EltTy.bits .f32 = 32 ∨ (Rect.block (s := S768x100) S768x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x1024.size a ≤ S64x768x1024.size a
  hwx0_3 : ∀ i : grid0.Coords, EltTy.bits .f32 = 32 ∨ (Rect.block (s := S64x768x1024) S1x768x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x100.size a ≤ S64x1024x100.size a
  hwx0_4 : ∀ i : grid0.Coords, EltTy.bits .f32 = 32 ∨ (Rect.block (s := S64x1024x100) S1x1024x100.size (cc0_transform_4 i) (hinb0_4 i)).WholeWords (EltTy.packing .f32)

variable [Facts₀]

def dot_S100x768_S768x1024_S100x1024_1_0_0_1_n_n : DotDims S100x768 S768x1024 S100x1024 where
  lhsContracting := [1]
  rhsContracting := [0]
  lhsNonContracting := [0]
  rhsNonContracting := [1]
  lhsBatch := []
  rhsBatch := []
  wf := dot_S100x768_S768x1024_S100x1024_1_0_0_1_n_n_wf
def dot_S768x100_S100x1024_S768x1024_1_0_0_1_n_n : DotDims S768x100 S100x1024 S768x1024 where
  lhsContracting := [1]
  rhsContracting := [0]
  lhsNonContracting := [0]
  rhsNonContracting := [1]
  lhsBatch := []
  rhsBatch := []
  wf := dot_S768x100_S100x1024_S768x1024_1_0_0_1_n_n_wf

abbrev win0_0 : Pipeline.Window sig grid0 :=
  Pipeline.Window.ofSpec (Memref.whole main_v0) S1x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S100x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S768x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x768x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x1024x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x768x32x32 : Shape := ⟨4, ![64, 768, 32, 32]⟩
abbrev S100x768 : Shape := ⟨2, ![100, 768]⟩
abbrev S64x32x32x768 : Shape := ⟨4, ![64, 32, 32, 768]⟩
abbrev S64x1024x768 : Shape := ⟨3, ![64, 1024, 768]⟩
abbrev S_ : Shape := ⟨0, ![]⟩
abbrev S64x1024 : Shape := ⟨2, ![64, 1024]⟩
abbrev S64x1024x1 : Shape := ⟨3, ![64, 1024, 1]⟩
abbrev S100 : Shape := ⟨1, ![100]⟩
abbrev S100x1 : Shape := ⟨2, ![100, 1]⟩
abbrev S64x1024x100 : Shape := ⟨3, ![64, 1024, 100]⟩

abbrev nBuf : Space → Nat
  | .hbm => 62
  | .vmem => 0
  | .smem => 0
  | _ => 0

abbrev bufTy : (tb : Table) → Fin (tcTables nBuf tb) → BufTy
  | .hbm, ⟨0, _⟩ => ⟨S64x768x32x32, .f32⟩
  | .hbm, ⟨1, _⟩ => ⟨S100x768, .f32⟩
  | .hbm, ⟨2, _⟩ => ⟨S64x32x32x768, .f32⟩
  | .hbm, ⟨3, _⟩ => ⟨S64x1024x768, .f32⟩
  | .hbm, ⟨4, _⟩ => ⟨S64x1024x768, .f32⟩
  | .hbm, ⟨5, _⟩ => ⟨S_, .f32⟩
  | .hbm, ⟨6, _⟩ => ⟨S64x1024, .f32⟩
  | .hbm, ⟨7, _⟩ => ⟨S64x1024x1, .f32⟩
  | .hbm, ⟨8, _⟩ => ⟨S64x1024x1, .f32⟩
  | .hbm, ⟨9, _⟩ => ⟨S_, .f32⟩
  | .hbm, ⟨10, _⟩ => ⟨S64x1024x1, .f32⟩
  | .hbm, ⟨11, _⟩ => ⟨S64x1024x1, .f32⟩
  | .hbm, ⟨12, _⟩ => ⟨S64x1024x768, .f32⟩
  | .hbm, ⟨13, _⟩ => ⟨S64x1024x768, .f32⟩
  | .hbm, ⟨14, _⟩ => ⟨S100x768, .f32⟩
  | .hbm, ⟨15, _⟩ => ⟨S_, .f32⟩
  | .hbm, ⟨16, _⟩ => ⟨S100, .f32⟩
  | .hbm, ⟨17, _⟩ => ⟨S100x1, .f32⟩
  | .hbm, ⟨18, _⟩ => ⟨S100x1, .f32⟩
  | .hbm, ⟨19, _⟩ => ⟨S_, .f32⟩
  | .hbm, ⟨20, _⟩ => ⟨S100x1, .f32⟩
  | .hbm, ⟨21, _⟩ => ⟨S100x1, .f32⟩
  | .hbm, ⟨22, _⟩ => ⟨S100x768, .f32⟩
  | .hbm, ⟨23, _⟩ => ⟨S100x768, .f32⟩
  | .hbm, ⟨24, _⟩ => ⟨S64x1024x100, .f32⟩
  | .hbm, ⟨25, _⟩ => ⟨S_, .f32⟩
  | .hbm, ⟨26, _⟩ => ⟨S64x1024, .f32⟩
  | .hbm, ⟨27, _⟩ => ⟨S_, .f32⟩
  | .hbm, ⟨28, _⟩ => ⟨S64x1024, .f32⟩
  | .hbm, ⟨29, _⟩ => ⟨S64x1024, .f32⟩
  | .hbm, ⟨30, _⟩ => ⟨S64x1024x1, .f32⟩
  | .hbm, ⟨31, _⟩ => ⟨S64x1024x100, .f32⟩
  | .hbm, ⟨32, _⟩ => ⟨S64x1024x100, .f32⟩
  | .hbm, ⟨33, _⟩ => ⟨S64x1024x100, .f32⟩
  | .hbm, ⟨34, _⟩ => ⟨S_, .f32⟩
  | .hbm, ⟨35, _⟩ => ⟨S64x1024, .f32⟩
  | .hbm, ⟨36, _⟩ => ⟨S64x1024x1, .f32⟩
  | .hbm, ⟨37, _⟩ => ⟨S64x1024x100, .f32⟩
  | .hbm, ⟨38, _⟩ => ⟨S64x1024x100, .f32⟩
  | .hbm, ⟨39, _⟩ => ⟨S_, .f32⟩
  | .hbm, ⟨40, _⟩ => ⟨S64x1024x100, .f32⟩
  | .hbm, ⟨41, _⟩ => ⟨S64x1024x100, .f32⟩
  | .hbm, ⟨42, _⟩ => ⟨S_, .f32⟩
  | .hbm, ⟨43, _⟩ => ⟨S64x1024x100, .f32⟩
  | .hbm, ⟨44, _⟩ => ⟨S64x1024x100, .f32⟩
  | .hbm, ⟨45, _⟩ => ⟨S64x1024x100, .f32⟩
  | .hbm, ⟨46, _⟩ => ⟨S64x1024x100, .f32⟩
  | .hbm, ⟨47, _⟩ => ⟨S_, .f32⟩
  | .hbm, ⟨48, _⟩ => ⟨S64x1024x100, .f32⟩
  | .hbm, ⟨49, _⟩ => ⟨S64x1024x100, .f32⟩
  | .hbm, ⟨50, _⟩ => ⟨S64x1024x100, .f32⟩
  | .hbm, ⟨51, _⟩ => ⟨S_, .f32⟩
  | .hbm, ⟨52, _⟩ => ⟨S64x1024, .f32⟩
  | .hbm, ⟨53, _⟩ => ⟨S64x1024x1, .f32⟩
  | .hbm, ⟨54, _⟩ => ⟨S_, .f32⟩
  | .hbm, ⟨55, _⟩ => ⟨S64x1024x1, .f32⟩
  | .hbm, ⟨56, _⟩ => ⟨S64x1024x1, .f32⟩
  | .hbm, ⟨57, _⟩ => ⟨S64x1024x100, .f32⟩
  | .hbm, ⟨58, _⟩ => ⟨S64x1024x100, .f32⟩
  | .hbm, ⟨59, _⟩ => ⟨S64x1024x768, .f32⟩
  | .hbm, ⟨60, _⟩ => ⟨S64x32x32x768, .f32⟩
  | .hbm, ⟨61, _⟩ => ⟨S64x768x32x32, .f32⟩
  | _, _ => ⟨S64x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  transposes_S64x768x32x32_S64x32x32x768_0_2_3_1 : S64x768x32x32.Transposes [0, 2, 3, 1] S64x32x32x768
  shapeCasts_S64x32x32x768_S64x1024x768 : S64x32x32x768.ShapeCasts S64x1024x768
  reducesTo_S64x1024x768_S64x1024_d2 : S64x1024x768.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x768_0_1_2 : S64x1024x1.BroadcastsInDim S64x1024x768 (![0, 1, 2] : Fin 3 → Fin S64x1024x768.rank)
  reducesTo_S100x768_S100_d1 : S100x768.ReducesTo [1] S100
  bcast_S100_S100x1_0 : S100.BroadcastsInDim S100x1 (![0] : Fin 1 → Fin S100x1.rank)
  bcast_S_S100x1 : S_.BroadcastsInDim S100x1 (![] : Fin 0 → Fin S100x1.rank)
  bcast_S100x1_S100x768_0_1 : S100x1.BroadcastsInDim S100x768 (![0, 1] : Fin 2 → Fin S100x768.rank)
  reducesTo_S64x1024x100_S64x1024_d2 : S64x1024x100.ReducesTo [2] S64x1024
  bcast_S_S64x1024 : S_.BroadcastsInDim S64x1024 (![] : Fin 0 → Fin S64x1024.rank)
  bcast_S64x1024x1_S64x1024x100_0_1_2 : S64x1024x1.BroadcastsInDim S64x1024x100 (![0, 1, 2] : Fin 3 → Fin S64x1024x100.rank)
  bcast_S_S64x1024x100 : S_.BroadcastsInDim S64x1024x100 (![] : Fin 0 → Fin S64x1024x100.rank)
  shapeCasts_S64x1024x768_S64x32x32x768 : S64x1024x768.ShapeCasts S64x32x32x768
  transposes_S64x32x32x768_S64x768x32x32_0_3_1_2 : S64x32x32x768.Transposes [0, 3, 1, 2] S64x768x32x32
  dot_S64x1024x768_S100x768_S64x1024x100_2_1_01_0_n_n_wf : DotDims.WF S64x1024x768 S100x768 S64x1024x100 [2] [1] [0, 1] [0] [] []
  dot_S64x1024x100_S100x768_S64x1024x768_2_0_01_1_n_n_wf : DotDims.WF S64x1024x100 S100x768 S64x1024x768 [2] [0] [0, 1] [1] [] []

variable [Facts₀]

def dot_S64x1024x768_S100x768_S64x1024x100_2_1_01_0_n_n : DotDims S64x1024x768 S100x768 S64x1024x100 where
  lhsContracting := [2]
  rhsContracting := [1]
  lhsNonContracting := [0, 1]
  rhsNonContracting := [0]
  lhsBatch := []
  rhsBatch := []
  wf := dot_S64x1024x768_S100x768_S64x1024x100_2_1_01_0_n_n_wf
def dot_S64x1024x100_S100x768_S64x1024x768_2_0_01_1_n_n : DotDims S64x1024x100 S100x768 S64x1024x768 where
  lhsContracting := [2]
  rhsContracting := [0]
  lhsNonContracting := [0, 1]
  rhsNonContracting := [1]
  lhsBatch := []
  rhsBatch := []
  wf := dot_S64x1024x100_S100x768_S64x1024x768_2_0_01_1_n_n_wf

class Facts : Prop extends Facts₀ where

variable [Facts]
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibColumnMax.lean ====
/-
  Maxima along an axis, on the extended reals, read at an index as a fold of max over the reduced coordinate.

  * The vector unit's maximum over the FIRST axis of an a×b array, from an accumulator pattern, at column c: the fold
    of max over r of X(r, c), from the pattern's value.
  * The host's reduce-maximum over the LAST axis of an a×b×c array, from a scalar initial value, at (i, j): the fold of
    max over k of X(i, j, k), from the initial value.
  * The host's reduce-add over the last axis of an a×b×c array likewise reads at (i, j) the entries (i, j, k).
-/
import Idealize.ShloMosaic.PureOps.Ideal.Laws
import Idealize.ShloMosaic.Lib.ValueIdx

noncomputable section

namespace Idealize.ShloMosaic.ColumnMax

open Idealize.ShloMosaic Idealize.ShloMosaic.ValueIdx

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's maximum over the first axis from the pattern acc, at column c. -/
theorem max_first_apply {a b : ℕ} (X : FVec Ideal ⟨2, ![a, b]⟩ .f32) (acc : BitVec 32) (h : Shape.Reduces ⟨2, ![a, b]⟩ [0] ⟨1, ![b]⟩)
    (hφ : FKind.Formats .f32) (hacc : acc = FKind.maximumf.neutral .f32 hφ) (c : Fin b) :
    multiReduction .maximumf [0] ⟨1, ![b]⟩ X acc h hφ hacc (ix1 c)
      = (Finset.univ : Finset (Fin a)).fold max (Ideal.ofBits .f32 acc) (fun r => X (ix2 r c)) := by
  refine (Ideal.multiReduction_maximumf_single X acc h hφ hacc (ix1 c)).trans ?_
  have e : (X ∘ h.lift (ix1 c)) = fun r : Fin a => X (ix2 r c) :=
    funext fun r => congrArg X (lift_first h c r)
  rw [e]
  rfl

/-- Position (i, j) with k inserted on the last axis is (i, j, k). -/
theorem lift_last3 {a b c : ℕ} (h : Shape.Reduces ⟨3, ![a, b, c]⟩ [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- The host's reduce-maximum over the last axis from a scalar initial value, at (i, j). -/
theorem hostMax_last3_apply {a b c : ℕ} (X : FVec Ideal ⟨3, ![a, b, c]⟩ .f32) (init : FVec Ideal ⟨0, ![]⟩ .f32)
    (h' : Shape.ReducesTo ⟨3, ![a, b, c]⟩ [2] ⟨2, ![a, b]⟩) (h : Shape.Reduces ⟨3, ![a, b, c]⟩ [2] ⟨2, ![a, b]⟩)
    (hu : 0 < (⟨0, ![]⟩ : Shape).numel) (i : Fin a) (j : Fin b) :
    Host.reduce FloatOps.maximumf X init h' hu (ix2 i j)
      = (Finset.univ : Finset (Fin c)).fold max (init (Shape.Idx.first hu)) (fun k => X (ix3 i j k)) := by
  rw [Host.reduce_eq_fold_single FloatOps.maximumf X init h' h hu]
  have e : (X ∘ h.lift (ix2 i j)) = fun k : Fin c => X (ix3 i j k) :=
    funext fun k => congrArg X (lift_last3 h i j k)
  rw [e]
  rfl

end Idealize.ShloMosaic.ColumnMax

end
-- ==== Proof.Consts.lean ====
/-
  The float literals of the two programs, as the extended reals their bit patterns denote: 1.0 is 1, the pattern
  of minus infinity is the bottom element, and the lower clip of a norm (the f32 nearest 10^-12) is the positive
  dyadic rational 9223372 / 2^63.
-/
import Idealize.ShloMosaic.PureOps.Ideal
import Idealize.ShloMosaic.PureOps.Ideal.Laws

noncomputable section

namespace Cert.Attn.Consts

open Idealize.ShloMosaic

/-- 1.0 denotes 1. -/
theorem ofBits_one : Ideal.ofBits .f32 0x3F800000#32 = 1 := by
  simp [Ideal.ofBits, Ideal.ieee, -EReal.coe_mul]; norm_num

/-- The pattern of minus infinity denotes the bottom element. -/
theorem ofBits_negInf : Ideal.ofBits .f32 0xFF800000#32 = ⊥ := by
  simp [Ideal.ofBits, Ideal.ieee]

/-- The lower clip of a norm denotes 9223372 / 2^63. -/
theorem ofBits_clip : Ideal.ofBits .f32 0x2B8CBCCC#32 = ((9223372 / 2 ^ 63 : ℝ) : EReal) := by
  simp [Ideal.ofBits, Ideal.ieee, -EReal.coe_mul]
  norm_num

/-- The lower clip of a norm is a positive real number. -/
theorem clip_pos : (0 : ℝ) < 9223372 / 2 ^ 63 := by positivity

end Cert.Attn.Consts

end
-- ==== Proof.LibRealValued.lean ====
/-
  Real-valued extended reals. A quantity is real-valued when it is the image of a real number, that is,
  neither of the two infinities. The arithmetic of the extended reals restricted to real-valued
  quantities is the arithmetic of the real numbers, and the exponential, division by a nonzero real and the
  reciprocal square root of a positive real keep a real-valued argument real-valued.
-/
import Mathlib
import Idealize.ShloMosaic.PureOps.Ideal
import Idealize.ShloMosaic.PureOps.Ideal.Laws
import Idealize.ShloMosaic.Lib.ValueIdx

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

/-- The reciprocal square root of a positive real number is real-valued (and is `(√r)⁻¹`). -/
theorem rsqrt_coe_of_pos {r : ℝ} (h : 0 < r) :
    Ideal.rsqrt (r : EReal) = (((Real.sqrt r)⁻¹ : ℝ) : EReal) := by
  rw [Ideal.rsqrt_coe, if_neg (not_lt.2 h.le), if_neg h.ne']

/-- The reciprocal square root of a positive real number is real-valued. -/
theorem isReal_rsqrt_of_pos {r : ℝ} (h : 0 < r) : IsReal (Ideal.rsqrt (r : EReal)) :=
  ⟨_, rsqrt_coe_of_pos h⟩

/-- A finite sum of squared deviations `(x i - μ) * (x i - μ)` of real-valued quantities from a
    real-valued centre is a nonnegative real number. -/
theorem IsReal.exists_nonneg_sq_sum {ι : Type*} (s : Finset ι) (x : ι → EReal) (μ : EReal)
    (hx : ∀ i ∈ s, IsReal (x i)) (hμ : IsReal μ) :
    ∃ r : ℝ, 0 ≤ r ∧ ∑ i ∈ s, (x i - μ) * (x i - μ) = (r : EReal) := by
  classical
  obtain ⟨m, rfl⟩ := hμ
  induction s using Finset.induction_on with
  | empty => exact ⟨0, le_refl 0, by simp⟩
  | insert a s ha ih =>
    obtain ⟨r, hr, hsum⟩ := ih fun i hi => hx i (Finset.mem_insert_of_mem hi)
    obtain ⟨xa, hxa⟩ := hx a (Finset.mem_insert_self a s)
    refine ⟨(xa - m) * (xa - m) + r, add_nonneg (mul_self_nonneg _) hr, ?_⟩
    rw [Finset.sum_insert ha, hsum, hxa, ← EReal.coe_sub, ← EReal.coe_mul, ← EReal.coe_add]

/-- A nonnegative real divided by a positive real is a nonnegative real. -/
theorem div_coe_nonneg {r : ℝ} (hr : 0 ≤ r) {n : ℝ} (hn : 0 < n) :
    ∃ v : ℝ, 0 ≤ v ∧ Ideal.div (r : EReal) (n : EReal) = (v : EReal) :=
  ⟨r * (1 / n), mul_nonneg hr (by positivity), by
    rw [Ideal.div_coe hn.ne' (r : EReal), ← EReal.coe_mul]⟩

/-- The biased variance shape: a finite sum of squared deviations of real-valued quantities from a
    real-valued centre, divided by a positive real number, is a nonnegative real number. -/
theorem IsReal.exists_nonneg_sq_sum_div {ι : Type*} (s : Finset ι) (x : ι → EReal) (μ : EReal)
    (hx : ∀ i ∈ s, IsReal (x i)) (hμ : IsReal μ) {n : ℝ} (hn : 0 < n) :
    ∃ v : ℝ, 0 ≤ v ∧ Ideal.div (∑ i ∈ s, (x i - μ) * (x i - μ)) (n : EReal) = (v : EReal) := by
  obtain ⟨r, hr, hsum⟩ := IsReal.exists_nonneg_sq_sum s x μ hx hμ
  rw [hsum]
  exact div_coe_nonneg hr hn

/-- A nonnegative real plus a positive real is a positive real. -/
theorem add_coe_pos {v : ℝ} (hv : 0 ≤ v) {ε : ℝ} (hε : 0 < ε) :
    ∃ p : ℝ, 0 < p ∧ (v : EReal) + (ε : EReal) = (p : EReal) :=
  ⟨v + ε, add_pos_of_nonneg_of_pos hv hε, (EReal.coe_add v ε).symm⟩

/-- The reciprocal square root of (a nonnegative real plus a positive real) is real-valued. -/
theorem isReal_rsqrt_add {v : ℝ} (hv : 0 ≤ v) {ε : ℝ} (hε : 0 < ε) :
    IsReal (Ideal.rsqrt ((v : EReal) + (ε : EReal))) := by
  obtain ⟨p, hp, h⟩ := add_coe_pos hv hε
  rw [h]
  exact isReal_rsqrt_of_pos hp

end Cert.RealValued
-- ==== Proof.Spec.lean ====
/-
  The mathematics of the memory-attention step, on the extended reals.

  A column x of the input (768 channels at one position of one image) is compared with the 100 rows of the
  memory, each row first divided by its clipped Euclidean norm. The two programs compute the similarity scores
  in two arrangements: one divides the column by its clipped norm before the dot products, the other takes the
  dot products of the raw column and multiplies each by the reciprocal of the clipped norm afterwards. For real
  numbers these agree, because a positive real factor distributes over a finite sum.

  The scores then go through a softmax over the 100 rows, a hard shrinkage around 1/100, and a renormalisation:
  the same expression on both sides, written here once (`shrink`).
-/
import Mathlib
import Idealize.ShloMosaic.PureOps.Ideal
import Idealize.ShloMosaic.PureOps.Ideal.Laws
import proofs.«126204_j42537356100301_2_alg».proof.Proof.Consts
import proofs.«126204_j42537356100301_2_alg».proof.Proof.LibRealValued

noncomputable section

open scoped BigOperators

namespace Cert.Attn

open Idealize.ShloMosaic Cert.RealValued

/-- The Euclidean norm of a family, clipped below at the f32 nearest 10^-12. -/
def cnorm {K : ℕ} (x : Fin K → EReal) : EReal :=
  max (Ideal.sqrt (∑ c, x c * x c)) (Ideal.ofBits .f32 0x2B8CBCCC#32)

/-- A memory row divided, entry by entry, by its clipped norm. -/
def rowNormed {M K : ℕ} (A : Fin M → Fin K → EReal) (m : Fin M) (c : Fin K) : EReal :=
  Ideal.div (A m c) (cnorm (A m))

/-- Scores with the norm applied AFTER the dot product: (Σ_c a(m,c) · x(c)) · (1 / ‖x‖). -/
def scoreLate {M K : ℕ} (a : Fin M → Fin K → EReal) (x : Fin K → EReal) (m : Fin M) : EReal :=
  (∑ c, a m c * x c) * Ideal.div (Ideal.ofBits .f32 0x3F800000#32) (cnorm x)

/-- Scores with the norm applied BEFORE the dot product: Σ_c (x(c) / ‖x‖) · a(m,c). -/
def scoreEarly {M K : ℕ} (a : Fin M → Fin K → EReal) (x : Fin K → EReal) (m : Fin M) : EReal :=
  ∑ c, Ideal.div (x c) (cnorm x) * a m c

/-- The softmax numerator: exp (s j - max_k s k), the maximum taken from minus infinity. -/
def softE {M : ℕ} (s : Fin M → EReal) (j : Fin M) : EReal :=
  Ideal.exp (s j - (Finset.univ : Finset (Fin M)).fold max (Ideal.ofBits .f32 0xFF800000#32) s)

/-- The softmax weight: the numerator over the sum of the numerators. -/
def softW {M : ℕ} (s : Fin M → EReal) (j : Fin M) : EReal :=
  Ideal.div (softE s j) (∑ j', softE s j')

/-- The hard shrinkage around 1/100 of a softmax weight w: max(d, 0) · w / (|d| + 10^-8) with d = w - 1/100
    (both literals the nearest f32). -/
def gate {M : ℕ} (s : Fin M → EReal) (j : Fin M) : EReal :=
  Ideal.div (max (softW s j - Ideal.ofBits .f32 0x3C23D70A#32) (Ideal.ofBits .f32 0x00000000#32) * softW s j)
    (max (softW s j - Ideal.ofBits .f32 0x3C23D70A#32) (-(softW s j - Ideal.ofBits .f32 0x3C23D70A#32))
      + Ideal.ofBits .f32 0x322BCC77#32)

/-- Softmax, hard shrinkage and renormalisation by the sum plus 10^-8: entry m of the result. -/
def shrink {M : ℕ} (s : Fin M → EReal) (m : Fin M) : EReal :=
  Ideal.div (gate s m) ((∑ j, gate s j) + Ideal.ofBits .f32 0x322BCC77#32)

/-- The coercion of the reals into the extended reals commutes with finite sums. -/
theorem coe_sum {K : ℕ} (f : Fin K → ℝ) : ((∑ c : Fin K, f c : ℝ) : EReal) = ∑ c : Fin K, (f c : EReal) := by
  classical
  induction (Finset.univ : Finset (Fin K)) using Finset.induction_on with
  | empty => simp
  | insert i s hi ih => rw [Finset.sum_insert hi, Finset.sum_insert hi, EReal.coe_add, ih]

/-- The clipped norm of a real-valued family is a positive real number. -/
theorem cnorm_pos {K : ℕ} {x : Fin K → EReal} (hx : ∀ c, IsReal (x c)) :
    ∃ d : ℝ, 0 < d ∧ cnorm x = (d : EReal) := by
  choose x' hx' using hx
  have hs : (∑ c : Fin K, x c * x c) = ((∑ c : Fin K, x' c * x' c : ℝ) : EReal) := by
    simp only [hx', ← EReal.coe_mul, ← coe_sum]
  have hnn : ¬ (∑ c : Fin K, x' c * x' c : ℝ) < 0 := not_lt.2 (Finset.sum_nonneg fun c _ => mul_self_nonneg (x' c))
  refine ⟨max (Real.sqrt (∑ c : Fin K, x' c * x' c)) (9223372 / 2 ^ 63), lt_max_of_lt_right Consts.clip_pos, ?_⟩
  unfold cnorm
  rw [hs, Ideal.sqrt_coe, if_neg hnn, Consts.ofBits_clip, coe_max]

/-- A memory row divided by its clipped norm is real-valued when the row is. -/
theorem rowNormed_isReal {M K : ℕ} {A : Fin M → Fin K → EReal} (hA : ∀ m c, IsReal (A m c)) (m : Fin M) (c : Fin K) :
    IsReal (rowNormed A m c) := by
  obtain ⟨d, hd, e⟩ := cnorm_pos (hA m)
  unfold rowNormed
  rw [e]
  exact isReal_div_coe (hA m c) hd.ne'

/-- The two arrangements of the scores agree on real-valued data: the reciprocal of the (positive real) clipped norm
    distributes over the finite sum of real products. -/
theorem scoreLate_eq_scoreEarly {M K : ℕ} {a : Fin M → Fin K → EReal} {x : Fin K → EReal}
    (ha : ∀ m c, IsReal (a m c)) (hx : ∀ c, IsReal (x c)) (m : Fin M) :
    scoreLate a x m = scoreEarly a x m := by
  obtain ⟨d, hd, e⟩ := cnorm_pos hx
  choose x' hx' using hx
  choose a' ha' using ha
  unfold scoreLate scoreEarly
  rw [e, Consts.ofBits_one, Ideal.div_coe hd.ne', one_mul]
  simp only [Ideal.div_coe hd.ne', hx', ha', ← EReal.coe_mul, ← coe_sum]
  congr 1
  rw [Finset.sum_mul]
  exact Finset.sum_congr rfl fun c _ => by ring

end Cert.Attn

end
-- ==== Proof.KernelBody.lean ====
/-
  The kernel body's arithmetic read at an index, at the ideal values.

  One grid point handles one image: the loaded block is the image's 768×1024 matrix Z (channels by positions), the
  normalised memory a (100×768) and the transposed memory (768×100). Column n of Z is one position's 768 channels.
    * the scores are (a · Z)(m, n) · (1 / ‖Z(·, n)‖): a 100×768 by 768×1024 product, each column then scaled by the
      reciprocal of that column's clipped norm (a row vector of 1024 entries broadcast down the 100 rows);
    * the softmax, the shrinkage and the renormalisation run down each column (maxima and sums over the first axis,
      each kept as a row vector and broadcast back down);
    * the first output is (transposed memory) · (weights), a 768×100 by 100×1024 product; the second is the weights
      transposed to positions by memory rows.
  Each step is named here and read at (row, column); the body's payloads are their composition.
-/
import proofs.«126204_j42537356100301_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«126204_j42537356100301_2_alg».proof.Proof.LibPlainDot
import proofs.«126204_j42537356100301_2_alg».proof.Proof.LibAxisFold
import proofs.«126204_j42537356100301_2_alg».proof.Proof.LibColumnMax
import proofs.«126204_j42537356100301_2_alg».proof.Proof.Spec

noncomputable section

open scoped BigOperators

namespace Cert.Attn.Body

open Cert.KernelIdeal Cert.KernelIdeal.Gen Idealize.ShloMosaic Idealize.ShloMosaic.ValueIdx Cert.Attn

/-! ## Row vectors: a length-1024 vector as a 1×1024 row, and a row broadcast down 100 rows -/

/-- A length-1024 vector laid out as one row. -/
def asRow (r : FVec Ideal S1024 .f32) : FVec Ideal S1x1024 .f32 := shapeCast S1x1024 r shapeCasts_S1024_S1x1024

theorem asRow_apply (r : FVec Ideal S1024 .f32) (u : Fin 1) (n : Fin 1024) : asRow r (ix2 u n) = r (ix1 n) :=
  shapeCast_a_1a_apply r shapeCasts_S1024_S1x1024 u n

/-- One row broadcast down the 100 rows. -/
def down (r : FVec Ideal S1x1024 .f32) : FVec Ideal S100x1024 .f32 := broadcastTo S100x1024 r broadcasts_S1x1024_S100x1024

theorem down_apply (r : FVec Ideal S1x1024 .f32) (m : Fin 100) (n : Fin 1024) : down r (ix2 m n) = r (ix2 (0 : Fin 1) n) :=
  broadcastTo_1b_ab_apply r broadcasts_S1x1024_S100x1024 m n

/-! ## Column sums and maxima -/

/-- The sum down each column of a 768×1024 matrix. -/
def colSum768 (X : FVec Ideal S768x1024 .f32) : FVec Ideal S1024 .f32 :=
  multiReduction .add [0] S1024 X 0x00000000#32 reduces_S768x1024_S1024 (.inl rfl) rfl

theorem colSum768_apply (X : FVec Ideal S768x1024 .f32) (n : Fin 1024) : colSum768 X (ix1 n) = ∑ c : Fin 768, X (ix2 c n) :=
  AxisFold.sum_first_apply X reduces_S768x1024_S1024 (.inl rfl) rfl n

/-- The sum down each column of a 100×1024 matrix. -/
def colSum100 (X : FVec Ideal S100x1024 .f32) : FVec Ideal S1024 .f32 :=
  multiReduction .add [0] S1024 X 0x00000000#32 reduces_S100x1024_S1024 (.inl rfl) rfl

theorem colSum100_apply (X : FVec Ideal S100x1024 .f32) (n : Fin 1024) : colSum100 X (ix1 n) = ∑ j : Fin 100, X (ix2 j n) :=
  AxisFold.sum_first_apply X reduces_S100x1024_S1024 (.inl rfl) rfl n

/-- The maximum down each column of a 100×1024 matrix, from minus infinity. -/
def colMax100 (X : FVec Ideal S100x1024 .f32) : FVec Ideal S1024 .f32 :=
  multiReduction .maximumf [0] S1024 X 0xFF800000#32 reduces_S100x1024_S1024 (.inl rfl) rfl

theorem colMax100_apply (X : FVec Ideal S100x1024 .f32) (n : Fin 1024) :
    colMax100 X (ix1 n) = (Finset.univ : Finset (Fin 100)).fold max (Ideal.ofBits .f32 0xFF800000#32) (fun j => X (ix2 j n)) :=
  ColumnMax.max_first_apply X 0xFF800000#32 reduces_S100x1024_S1024 (.inl rfl) rfl n

/-! ## The scores -/

/-- The reciprocals of the columns' clipped norms, as one row. -/
def invNormV (Z : FVec Ideal S768x1024 .f32) : FVec Ideal S1x1024 .f32 :=
  divf (broadcast S1x1024 (Scalar.ofBits .f32 0x3F800000#32))
    (maximumf (sqrt (asRow (colSum768 (mulf Z Z)))) (broadcast S1x1024 (Scalar.ofBits .f32 0x2B8CBCCC#32)))

theorem invNormV_apply (Z : FVec Ideal S768x1024 .f32) (u : Fin 1) (n : Fin 1024) :
    invNormV Z (ix2 u n) = Ideal.div (Ideal.ofBits .f32 0x3F800000#32) (cnorm fun c : Fin 768 => Z (ix2 c n)) := by
  have h : asRow (colSum768 (mulf Z Z)) (ix2 u n) = ∑ c : Fin 768, Z (ix2 c n) * Z (ix2 c n) :=
    (asRow_apply _ u n).trans (colSum768_apply _ n)
  show Ideal.div (Ideal.ofBits .f32 0x3F800000#32)
      (max (Ideal.sqrt (asRow (colSum768 (mulf Z Z)) (ix2 u n))) (Ideal.ofBits .f32 0x2B8CBCCC#32)) = _
  rw [h]
  rfl

/-- The image's block as a 768×1024 matrix. -/
def imageV (v0 : Vec Ideal S1x768x1024 .f32) : FVec Ideal S768x1024 .f32 :=
  shapeCast S768x1024 v0 shapeCasts_S1x768x1024_S768x1024

theorem imageV_apply (v0 : Vec Ideal S1x768x1024 .f32) (c : Fin 768) (n : Fin 1024) :
    imageV v0 (ix2 c n) = v0 (ix3 (0 : Fin 1) c n) :=
  shapeCast_1ab_ab_apply v0 shapeCasts_S1x768x1024_S768x1024 c n

/-- The product of the normalised memory with the image. -/
def rawV (v0 : Vec Ideal S1x768x1024 .f32) (v10 : Vec Ideal S100x768 .f32) : FVec Ideal S100x1024 .f32 :=
  matmul dot_S100x768_S768x1024_S100x1024_1_0_0_1_n_n (some .fp32)
    (shapeCast S100x768 v10 shapeCasts_S100x768_S100x768 : FVec Ideal S100x768 .f32)
    (imageV v0) (constant S100x1024 .f32 0x00000000#32)

theorem rawV_apply (v0 : Vec Ideal S1x768x1024 .f32) (v10 : Vec Ideal S100x768 .f32) (m : Fin 100) (n : Fin 1024) :
    rawV v0 v10 (ix2 m n) = ∑ c : Fin 768, v10 (ix2 m c) * v0 (ix3 (0 : Fin 1) c n) := by
  have hd : dot_S100x768_S768x1024_S100x1024_1_0_0_1_n_n = DotDims.plain 100 768 1024 := rfl
  have hs : (shapeCast S100x768 v10 shapeCasts_S100x768_S100x768 : FVec Ideal S100x768 .f32) = v10 :=
    shapeCast_self v10 shapeCasts_S100x768_S100x768
  unfold rawV
  rw [hd, hs]
  refine (PlainDot.matmul_zero_apply (some .fp32) (v10 : FVec Ideal S100x768 .f32) (imageV v0) m n).trans ?_
  exact Finset.sum_congr rfl fun c _ => by rw [imageV_apply]

/-- The scores: the product, each column scaled by the reciprocal of the column's clipped norm. -/
def scoresV (v0 : Vec Ideal S1x768x1024 .f32) (v10 : Vec Ideal S100x768 .f32) : FVec Ideal S100x1024 .f32 :=
  mulf (rawV v0 v10) (down (invNormV (imageV v0)))

theorem scoresV_apply (v0 : Vec Ideal S1x768x1024 .f32) (v10 : Vec Ideal S100x768 .f32) (m : Fin 100) (n : Fin 1024) :
    scoresV v0 v10 (ix2 m n)
      = scoreLate (fun (m' : Fin 100) (c : Fin 768) => v10 (ix2 m' c)) (fun c : Fin 768 => v0 (ix3 (0 : Fin 1) c n)) m := by
  show rawV v0 v10 (ix2 m n) * down (invNormV (imageV v0)) (ix2 m n) = _
  rw [rawV_apply, down_apply, invNormV_apply]
  simp only [imageV_apply]
  rfl

/-! ## Softmax, shrinkage, renormalisation down the columns -/

/-- The softmax numerators. -/
def eV (s : FVec Ideal S100x1024 .f32) : FVec Ideal S100x1024 .f32 := exp (subf s (down (asRow (colMax100 s))))

theorem eV_apply (s : FVec Ideal S100x1024 .f32) (j : Fin 100) (n : Fin 1024) :
    eV s (ix2 j n) = softE (fun k : Fin 100 => s (ix2 k n)) j := by
  show Ideal.exp (s (ix2 j n) - down (asRow (colMax100 s)) (ix2 j n)) = _
  rw [down_apply, asRow_apply, colMax100_apply]
  rfl

/-- The softmax weights. -/
def wV (s : FVec Ideal S100x1024 .f32) : FVec Ideal S100x1024 .f32 := divf (eV s) (down (asRow (colSum100 (eV s))))

theorem wV_apply (s : FVec Ideal S100x1024 .f32) (j : Fin 100) (n : Fin 1024) :
    wV s (ix2 j n) = softW (fun k : Fin 100 => s (ix2 k n)) j := by
  show Ideal.div (eV s (ix2 j n)) (down (asRow (colSum100 (eV s))) (ix2 j n)) = _
  rw [down_apply, asRow_apply, colSum100_apply]
  simp only [eV_apply]
  rfl

/-- The shrunk weights. -/
def gV (s : FVec Ideal S100x1024 .f32) : FVec Ideal S100x1024 .f32 :=
  divf (mulf (maximumf (subf (wV s) (broadcast S100x1024 (Scalar.ofBits .f32 0x3C23D70A#32))) (broadcast S100x1024 (Scalar.ofBits .f32 0x00000000#32))) (wV s))
    (addf (absf (subf (wV s) (broadcast S100x1024 (Scalar.ofBits .f32 0x3C23D70A#32)))) (broadcast S100x1024 (Scalar.ofBits .f32 0x322BCC77#32)))

theorem gV_apply (s : FVec Ideal S100x1024 .f32) (j : Fin 100) (n : Fin 1024) :
    gV s (ix2 j n) = gate (fun k : Fin 100 => s (ix2 k n)) j := by
  show Ideal.div (max (wV s (ix2 j n) - Ideal.ofBits .f32 0x3C23D70A#32) (Ideal.ofBits .f32 0x00000000#32) * wV s (ix2 j n))
      (max (wV s (ix2 j n) - Ideal.ofBits .f32 0x3C23D70A#32) (-(wV s (ix2 j n) - Ideal.ofBits .f32 0x3C23D70A#32))
        + Ideal.ofBits .f32 0x322BCC77#32) = _
  rw [wV_apply]
  rfl

/-- The renormalised weights. -/
def shrinkV (s : FVec Ideal S100x1024 .f32) : FVec Ideal S100x1024 .f32 :=
  divf (gV s) (down (addf (asRow (colSum100 (gV s))) (broadcast S1x1024 (Scalar.ofBits .f32 0x322BCC77#32))))

theorem shrinkV_apply (s : FVec Ideal S100x1024 .f32) (m : Fin 100) (n : Fin 1024) :
    shrinkV s (ix2 m n) = shrink (fun k : Fin 100 => s (ix2 k n)) m := by
  show Ideal.div (gV s (ix2 m n)) (down (addf (asRow (colSum100 (gV s))) (broadcast S1x1024 (Scalar.ofBits .f32 0x322BCC77#32))) (ix2 m n)) = _
  rw [down_apply]
  show Ideal.div (gV s (ix2 m n)) (asRow (colSum100 (gV s)) (ix2 (0 : Fin 1) n) + Ideal.ofBits .f32 0x322BCC77#32) = _
  rw [asRow_apply, colSum100_apply]
  simp only [gV_apply]
  rfl

/-! ## The payloads -/

/-- The weights the body computes from the image's block and the normalised memory. -/
theorem pay3_eq (v0 : Vec Ideal S1x768x1024 .f32) (v10 : Vec Ideal S100x768 .f32) :
    k0_pay3 (F := Ideal) v0 v10 = shrinkV (scoresV v0 v10) := rfl

/-- The weights at (memory row m, position n). -/
theorem pay3_apply (v0 : Vec Ideal S1x768x1024 .f32) (v10 : Vec Ideal S100x768 .f32) (m : Fin 100) (n : Fin 1024) :
    k0_pay3 (F := Ideal) v0 v10 (ix2 m n)
      = shrink (scoreLate (fun (m' : Fin 100) (c : Fin 768) => v10 (ix2 m' c)) (fun c : Fin 768 => v0 (ix3 (0 : Fin 1) c n))) m := by
  rw [pay3_eq, shrinkV_apply]
  simp only [scoresV_apply]

/-- The second output's payload: the weights transposed, at (position n, memory row m). -/
theorem pay2_apply (v38 : FVec Ideal S100x1024 .f32) (u : Fin 1) (n : Fin 1024) (m : Fin 100) :
    k0_pay2 (F := Ideal) v38 (ix3 u n m) = v38 (ix2 m n) := by
  unfold k0_pay2
  exact (shapeCast_ab_1ab_apply _ shapeCasts_S1024x100_S1x1024x100 u n m).trans
    (transpose_ix2_apply v38 transposes_S100x1024_p1_0_S1024x100 n m)

/-- The first output's payload: the transposed memory times the weights, at (channel c, position n). -/
theorem pay1_apply (v38 : FVec Ideal S100x1024 .f32) (v40 : FVec Ideal S768x100 .f32) (u : Fin 1) (c : Fin 768) (n : Fin 1024) :
    k0_pay1 (F := Ideal) v38 v40 (ix3 u c n) = ∑ j : Fin 100, v40 (ix2 c j) * v38 (ix2 j n) := by
  have hd : dot_S768x100_S100x1024_S768x1024_1_0_0_1_n_n = DotDims.plain 768 100 1024 := rfl
  unfold k0_pay1
  refine (shapeCast_ab_1ab_apply _ shapeCasts_S768x1024_S1x768x1024 u c n).trans ?_
  rw [hd]
  exact PlainDot.matmul_zero_apply none (truncf .bf16 v40 bitsLt_bf16_f32) (truncf .bf16 v38 bitsLt_bf16_f32) c n

/-- The transposed memory's payload is the loaded block. -/
theorem pay4_eq (v39 : Vec Ideal S768x100 .f32) : k0_pay4 (F := Ideal) v39 = v39 := by
  unfold k0_pay4
  exact shapeCast_self _ _

end Cert.Attn.Body

end
-- ==== Proof.Whole.lean ====
/-
  The two results as functions of the two argument arrays, index by index.

  The image array Z is indexed (image b, channel c, row h, column w); position n of an image is (h, w) = (n / 32, n % 32),
  so the column of channels at position n of image b is c ↦ Z(b, c, n / 32, n % 32). The memory array A is indexed
  (row m, channel c).
    * weights(b, n, m): the scores of that column against the normalised memory rows, through softmax, shrinkage and
      renormalisation;
    * recon(b, c, n) = Σ_m A(m, c) · weights(b, n, m), the reconstruction of channel c at position n.
  The second result is weights at (b, n, m); the first is recon at (b, c, h·32 + w).
-/
import proofs.«126204_j42537356100301_2_alg».proof.Proof.Spec
import Idealize.ShloMosaic.Lib.ValueIdx

noncomputable section

open scoped BigOperators

namespace Cert.Attn

open Idealize.ShloMosaic Idealize.ShloMosaic.ValueIdx Cert.RealValued

/-- The shape of the image array, of the memory array, and of the second result. -/
abbrev SZ : Shape := ⟨4, ![64, 768, 32, 32]⟩
abbrev SA : Shape := ⟨2, ![100, 768]⟩
abbrev SW : Shape := ⟨3, ![64, 1024, 100]⟩

/-- Position n of an image as its row and column. -/
def rowOf (n : Fin 1024) : Fin 32 := ⟨n.val / 32, by have := n.isLt; omega⟩
def colOfPos (n : Fin 1024) : Fin 32 := ⟨n.val % 32, by omega⟩
/-- Row h and column w of an image as its position. -/
def posOf (h w : Fin 32) : Fin 1024 := ⟨h.val * 32 + w.val, by have := h.isLt; have := w.isLt; omega⟩

/-- The 768 channels at position n of image b. -/
def column (Z : SZ.Idx → EReal) (b : Fin 64) (n : Fin 1024) (c : Fin 768) : EReal := Z (ix4 b c (rowOf n) (colOfPos n))

/-- The memory as rows of channels. -/
def memRows (A : SA.Idx → EReal) (m : Fin 100) (c : Fin 768) : EReal := A (ix2 m c)

/-- The renormalised attention weights, with the column's norm applied after the dot products. -/
def weights (Z : SZ.Idx → EReal) (A : SA.Idx → EReal) (b : Fin 64) (n : Fin 1024) (m : Fin 100) : EReal :=
  shrink (scoreLate (rowNormed (memRows A)) (column Z b n)) m

/-- The same with the column normalised before the dot products. -/
def weightsEarly (Z : SZ.Idx → EReal) (A : SA.Idx → EReal) (b : Fin 64) (n : Fin 1024) (m : Fin 100) : EReal :=
  shrink (scoreEarly (rowNormed (memRows A)) (column Z b n)) m

/-- On real-valued arrays the two arrangements give the same weights. -/
theorem weightsEarly_eq (Z : SZ.Idx → EReal) (A : SA.Idx → EReal) (hZ : ∀ i, IsReal (Z i)) (hA : ∀ i, IsReal (A i))
    (b : Fin 64) (n : Fin 1024) (m : Fin 100) : weightsEarly Z A b n m = weights Z A b n m := by
  unfold weightsEarly weights
  have h : scoreEarly (rowNormed (memRows A)) (column Z b n) = scoreLate (rowNormed (memRows A)) (column Z b n) :=
    funext fun j => (scoreLate_eq_scoreEarly (fun m' c => rowNormed_isReal (fun m'' c' => hA _) m' c) (fun c => hZ _) j).symm
  rw [h]

/-- The second result: the weights at (image, position, memory row). -/
def G1 (Z : SZ.Idx → EReal) (A : SA.Idx → EReal) : SW.Idx → EReal := fun i => weights Z A (i 0) (i 1) (i 2)

/-- The reconstruction of channel c at position n of image b. -/
def recon (Z : SZ.Idx → EReal) (A : SA.Idx → EReal) (b : Fin 64) (c : Fin 768) (n : Fin 1024) : EReal :=
  ∑ j : Fin 100, A (ix2 j c) * weights Z A b n j

/-- The first result: the reconstruction at (image, channel, row, column). -/
def G0 (Z : SZ.Idx → EReal) (A : SA.Idx → EReal) : SZ.Idx → EReal := fun i => recon Z A (i 0) (i 1) (posOf (i 2) (i 3))

end Cert.Attn

end
-- ==== Proof.RefValue.lean ====
/-
  The reference program's stages read at an index by coordinates, and its two results as the whole-array functions.

  The reference lays each image out as positions by channels: entry (b, n, c) of its flattened input is the image array at
  (b, c, n / 32, n % 32), the column of channels at position n. It divides each column by its clipped norm, takes the dot
  products with the normalised memory rows, and runs softmax, shrinkage and renormalisation along the last axis (the 100
  memory rows). Its reconstruction Σ_m weights(b, n, m) · A(m, c) is reshaped and transposed back to (b, c, h, w) with
  n = h·32 + w.
-/
import proofs.«126204_j42537356100301_2_alg».proof.Proof.Gen.ReferenceIdeal.Read
import Idealize.ShloMosaic.Lib.ValueIdx
import proofs.«126204_j42537356100301_2_alg».proof.Proof.LibColumnMax
import proofs.«126204_j42537356100301_2_alg».proof.Proof.Whole

noncomputable section

open scoped BigOperators

namespace Cert.Attn.Ref

open Cert.ReferenceIdeal Cert.ReferenceIdeal.Read Idealize.ShloMosaic Idealize.ShloMosaic.ValueIdx Cert.Attn Cert.RealValued

variable (x0 : (⟨S64x768x32x32, .f32⟩ : BufTy).Contents (Elt Ideal)) (x1 : (⟨S100x768, .f32⟩ : BufTy).Contents (Elt Ideal))

/-- The maximum with minus infinity on the left is the right operand. -/
theorem max_negInf_left (y : EReal) : max (Ideal.ofBits .f32 0xFF800000#32) y = y := by
  rw [Consts.ofBits_negInf]; exact max_eq_right bot_le

/-! ## The flattened image and its clipped norms -/

/-- Entry (b, n, c) of the flattened image is channel c of the column at position n of image b. -/
theorem image_apply (b : Fin 64) (n : Fin 1024) (c : Fin 768) :
    val_main_v1 (F := Ideal) x0 (ix3 b n c) = column x0 b n c := by
  rw [val_main_v1_apply, val_main_v0_apply]
  unfold column
  refine congrArg x0 (funext fun a => Fin.ext ?_)
  have hb := b.isLt; have hn := n.isLt; have hc := c.isLt
  match a with
  | ⟨0, _⟩ => show ((b.val * 1024 + n.val) * 768 + c.val) / 786432 = b.val; omega
  | ⟨1, _⟩ => show ((b.val * 1024 + n.val) * 768 + c.val) % 768 = c.val; omega
  | ⟨2, _⟩ => show ((b.val * 1024 + n.val) * 768 + c.val) / 24576 % 32 = n.val / 32; omega
  | ⟨3, _⟩ => show ((b.val * 1024 + n.val) * 768 + c.val) / 768 % 32 = n.val % 32; omega

/-- The sum of squares of the column at (b, n). -/
theorem sumsq_apply (b : Fin 64) (n : Fin 1024) :
    val_main_v3 (F := Ideal) x0 (ix2 b n) = ∑ c : Fin 768, column x0 b n c * column x0 b n c := by
  rw [val_main_v3_apply]
  show Ideal.ofBits .f32 0x00000000#32 + _ = _
  rw [Ideal.ofBits_zero_f32, zero_add]
  refine Finset.sum_congr rfl fun k _ => ?_
  have e : idx_main_v3 (ix2 b n) k = ix3 b n k :=
    funext fun a => Fin.ext (by match a with | ⟨0, _⟩ => rfl | ⟨1, _⟩ => rfl | ⟨2, _⟩ => rfl)
  rw [e, val_main_v2_apply, image_apply]
  rfl

/-- The divisor at (b, n, c) is the clipped norm of the column at (b, n). -/
theorem den_apply (b : Fin 64) (n : Fin 1024) (c : Fin 768) :
    val_main_v8 (F := Ideal) x0 (ix3 b n c) = cnorm (column x0 b n) := by
  rw [val_main_v8_apply, val_main_v7_apply, val_main_v5_apply, val_main_v4_apply, val_main_v6_apply, val_main_cst_0_apply]
  have e : idx_main_v4 (idx_main_v8 (ix3 b n c)) = ix2 b n :=
    funext fun a => Fin.ext (by match a with | ⟨0, _⟩ => rfl | ⟨1, _⟩ => rfl)
  rw [e, sumsq_apply]
  rfl

/-! ## The normalised memory -/

/-- The sum of squares of memory row m. -/
theorem memsq_apply (m : Fin 100) :
    val_main_v11 (F := Ideal) x1 (ix1 m) = ∑ c : Fin 768, memRows x1 m c * memRows x1 m c := by
  rw [val_main_v11_apply]
  show Ideal.ofBits .f32 0x00000000#32 + _ = _
  rw [Ideal.ofBits_zero_f32, zero_add]
  refine Finset.sum_congr rfl fun k _ => ?_
  have e : idx_main_v11 (ix1 m) k = ix2 m k :=
    funext fun a => Fin.ext (by match a with | ⟨0, _⟩ => rfl | ⟨1, _⟩ => rfl)
  rw [e]
  rfl

/-- Entry (m, c) of the normalised memory. -/
theorem mem_apply (m : Fin 100) (c : Fin 768) :
    val_main_v17 (F := Ideal) x1 (ix2 m c) = rowNormed (memRows x1) m c := by
  rw [val_main_v17_apply, val_main_v16_apply, val_main_v15_apply, val_main_v13_apply, val_main_v12_apply, val_main_v14_apply,
    val_main_cst_2_apply]
  have e : idx_main_v12 (idx_main_v16 (ix2 m c)) = ix1 m :=
    funext fun a => Fin.ext (by match a with | ⟨0, _⟩ => rfl)
  rw [e, memsq_apply]
  rfl

/-! ## The scores, and the softmax, shrinkage and renormalisation along the memory rows -/

/-- The score of position n of image b against memory row m: the column is normalised first. -/
theorem scores_apply (b : Fin 64) (n : Fin 1024) (m : Fin 100) :
    val_main_v18 (F := Ideal) x0 x1 (ix3 b n m) = scoreEarly (rowNormed (memRows x1)) (column x0 b n) m := by
  rw [val_main_v18_apply]
  unfold scoreEarly
  refine Finset.sum_congr rfl fun k _ => ?_
  have el : lidx_main_v18 (ix3 b n m) k = ix3 b n k :=
    funext fun a => Fin.ext (by match a with | ⟨0, _⟩ => rfl | ⟨1, _⟩ => rfl | ⟨2, _⟩ => rfl)
  have er : ridx_main_v18 (ix3 b n m) k = ix2 m k :=
    funext fun a => Fin.ext (by match a with | ⟨0, _⟩ => rfl | ⟨1, _⟩ => rfl)
  rw [el, er, val_main_v9_apply, image_apply, den_apply, mem_apply]
  rfl

/-- The scores at (b, n) as a family over the memory rows. -/
abbrev scoresAt (b : Fin 64) (n : Fin 1024) : Fin 100 → EReal := fun k => val_main_v18 (F := Ideal) x0 x1 (ix3 b n k)

/-- The maximum of the scores at (b, n), from minus infinity. -/
theorem rowmax_apply (b : Fin 64) (n : Fin 1024) :
    val_main_v21 (F := Ideal) x0 x1 (ix2 b n)
      = (Finset.univ : Finset (Fin 100)).fold max (Ideal.ofBits .f32 0xFF800000#32) (scoresAt x0 x1 b n) := by
  rw [val_main_v21_apply, val_main_v20_apply, val_main_cst_4_apply]
  show max (Ideal.ofBits .f32 0xFF800000#32) (val_main_v19 (F := Ideal) x0 x1 (ix2 b n)) = _
  rw [max_negInf_left]
  unfold val_main_v19
  exact ColumnMax.hostMax_last3_apply _ _ _ (by decide) _ b n

/-- The softmax numerators. -/
theorem softE_apply (b : Fin 64) (n : Fin 1024) (j : Fin 100) :
    val_main_v25 (F := Ideal) x0 x1 (ix3 b n j) = softE (scoresAt x0 x1 b n) j := by
  rw [val_main_v25_apply, val_main_v24_apply, val_main_v23_apply, val_main_v22_apply]
  have e : idx_main_v22 (idx_main_v23 (ix3 b n j)) = ix2 b n :=
    funext fun a => Fin.ext (by match a with | ⟨0, _⟩ => rfl | ⟨1, _⟩ => rfl)
  rw [e, rowmax_apply]
  rfl

/-- The softmax weights. -/
theorem softW_apply (b : Fin 64) (n : Fin 1024) (j : Fin 100) :
    val_main_v29 (F := Ideal) x0 x1 (ix3 b n j) = softW (scoresAt x0 x1 b n) j := by
  rw [val_main_v29_apply, val_main_v28_apply, val_main_v27_apply, val_main_v26_apply]
  have e : idx_main_v27 (idx_main_v28 (ix3 b n j)) = ix2 b n :=
    funext fun a => Fin.ext (by match a with | ⟨0, _⟩ => rfl | ⟨1, _⟩ => rfl)
  have e2 : ∀ k : Fin 100, idx_main_v26 (ix2 b n) k = ix3 b n k := fun k =>
    funext fun a => Fin.ext (by match a with | ⟨0, _⟩ => rfl | ⟨1, _⟩ => rfl | ⟨2, _⟩ => rfl)
  rw [e]
  show Ideal.div (val_main_v25 (F := Ideal) x0 x1 (ix3 b n j))
      (Ideal.ofBits .f32 0x00000000#32 + ∑ k : Fin 100, val_main_v25 (F := Ideal) x0 x1 (idx_main_v26 (ix2 b n) k)) = _
  rw [Ideal.ofBits_zero_f32, zero_add]
  simp only [e2, softE_apply]
  rfl

/-- The shrunk weights. -/
theorem gate_apply (b : Fin 64) (n : Fin 1024) (j : Fin 100) :
    val_main_v37 (F := Ideal) x0 x1 (ix3 b n j) = gate (scoresAt x0 x1 b n) j := by
  rw [val_main_v37_apply, val_main_v33_apply, val_main_v36_apply, val_main_v32_apply, val_main_v34_apply, val_main_v31_apply,
    val_main_v30_apply, val_main_cst_6_apply, val_main_call0_v0_apply, val_main_call0_cst_apply, val_main_v35_apply,
    val_main_cst_7_apply, softW_apply]
  rfl

/-- The second result at (b, n, m). -/
theorem weights_apply (b : Fin 64) (n : Fin 1024) (m : Fin 100) :
    val_main_v43 (F := Ideal) x0 x1 (ix3 b n m) = weightsEarly x0 x1 b n m := by
  rw [val_main_v43_apply, val_main_v42_apply, val_main_v41_apply, val_main_v39_apply, val_main_v38_apply, val_main_v40_apply,
    val_main_cst_9_apply]
  have e : idx_main_v39 (idx_main_v42 (ix3 b n m)) = ix2 b n :=
    funext fun a => Fin.ext (by match a with | ⟨0, _⟩ => rfl | ⟨1, _⟩ => rfl)
  have e2 : ∀ k : Fin 100, idx_main_v38 (ix2 b n) k = ix3 b n k := fun k =>
    funext fun a => Fin.ext (by match a with | ⟨0, _⟩ => rfl | ⟨1, _⟩ => rfl | ⟨2, _⟩ => rfl)
  rw [e]
  show Ideal.div (val_main_v37 (F := Ideal) x0 x1 (ix3 b n m))
      ((Ideal.ofBits .f32 0x00000000#32 + ∑ k : Fin 100, val_main_v37 (F := Ideal) x0 x1 (idx_main_v38 (ix2 b n) k))
        + Ideal.ofBits .f32 0x322BCC77#32) = _
  rw [Ideal.ofBits_zero_f32, zero_add]
  simp only [e2, gate_apply]
  have hs : scoresAt x0 x1 b n = scoreEarly (rowNormed (memRows x1)) (column x0 b n) :=
    funext fun k => scores_apply x0 x1 b n k
  rw [hs]
  rfl

/-- The first result at (b, c, h, w): the weights at position h·32 + w against channel c of the memory. -/
theorem recon_apply (b : Fin 64) (c : Fin 768) (h w : Fin 32) :
    val_main_v46 (F := Ideal) x0 x1 (ix4 b c h w)
      = ∑ j : Fin 100, val_main_v43 (F := Ideal) x0 x1 (ix3 b (posOf h w) j) * x1 (ix2 j c) := by
  rw [val_main_v46_apply, val_main_v45_apply, val_main_v44_apply]
  refine Finset.sum_congr rfl fun k _ => ?_
  have hb := b.isLt; have hc := c.isLt; have hh := h.isLt; have hw := w.isLt
  have el : lidx_main_v44 (idx_main_v45 (idx_main_v46 (ix4 b c h w))) k = ix3 b (posOf h w) k :=
    funext fun a => Fin.ext (by
      match a with
      | ⟨0, _⟩ => show (((b.val * 32 + h.val) * 32 + w.val) * 768 + c.val) / 786432 = b.val; omega
      | ⟨1, _⟩ => show (((b.val * 32 + h.val) * 32 + w.val) * 768 + c.val) / 768 % 1024 = h.val * 32 + w.val; omega
      | ⟨2, _⟩ => rfl)
  have er : ridx_main_v44 (idx_main_v45 (idx_main_v46 (ix4 b c h w))) k = ix2 k c :=
    funext fun a => Fin.ext (by
      match a with
      | ⟨0, _⟩ => rfl
      | ⟨1, _⟩ => show (((b.val * 32 + h.val) * 32 + w.val) * 768 + c.val) % 768 = c.val; omega)
  rw [el, er]

/-! ## The two results as whole-array functions -/

/-- The reference's second result is the weights array, when the arguments are real-valued. -/
theorem out1_eq (hZ : ∀ i, IsReal (x0 i)) (hA : ∀ i, IsReal (x1 i)) : val_main_v43 (F := Ideal) x0 x1 = G1 x0 x1 :=
  funext fun i => by
    obtain ⟨b, n, m, rfl⟩ : ∃ (b : Fin 64) (n : Fin 1024) (m : Fin 100), i = ix3 b n m := ⟨i 0, i 1, i 2, eq_ix3 i⟩
    rw [weights_apply, weightsEarly_eq x0 x1 hZ hA]
    rfl

/-- The reference's first result is the reconstruction array, when the arguments are real-valued. -/
theorem out0_eq (hZ : ∀ i, IsReal (x0 i)) (hA : ∀ i, IsReal (x1 i)) : val_main_v46 (F := Ideal) x0 x1 = G0 x0 x1 :=
  funext fun i => by
    obtain ⟨b, c, h, w, rfl⟩ : ∃ (b : Fin 64) (c : Fin 768) (h w : Fin 32), i = ix4 b c h w := ⟨i 0, i 1, i 2, i 3, eq_ix4 i⟩
    rw [recon_apply]
    show _ = ∑ j : Fin 100, x1 (ix2 j c) * weights x0 x1 b (posOf h w) j
    refine Finset.sum_congr rfl fun j _ => ?_
    rw [weights_apply, weightsEarly_eq x0 x1 hZ hA, mul_comm]

end Cert.Attn.Ref

end
-- ==== Proof.KernelHost.lean ====
/-
  What the kernel's region finds in its three input arrays, read at an index.

  Before the launch the host reshapes the image array (64, 768, 32, 32) to (64, 768, 1024), so that entry (b, c, n) is the
  image array at (b, c, n / 32, n % 32): the channels at position n of image b form the column the body works on. It
  divides each memory row by its clipped norm with the very operations the reference uses, so that array is the
  reference's normalised memory; and it transposes the memory to channels by rows.
-/
import proofs.«126204_j42537356100301_2_alg».proof.Proof.Gen.KernelIdeal.Frame
import proofs.«126204_j42537356100301_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import proofs.«126204_j42537356100301_2_alg».proof.Proof.RefValue
import proofs.«126204_j42537356100301_2_alg».proof.Proof.Whole

noncomputable section

open scoped BigOperators

namespace Cert.Attn.Host

open Cert.KernelIdeal Cert.KernelIdeal.Gen Idealize.ShloMosaic Idealize.ShloMosaic.TcCoe Idealize.ShloMosaic.ValueIdx
open Idealize.SL.Sem Idealize.ShloMosaic.StableHlo Cert.Attn

variable (m : (ℓ : Loc nD τ sig) → Buf (Elt Ideal) ℓ)

/-- The image array as launched. -/
abbrev argZ (c : Dev nD) : SZ.Idx → EReal := m ((c : Thread nD τ).loc main_arg0)
/-- The memory array as launched. -/
abbrev argA (c : Dev nD) : SA.Idx → EReal := m ((c : Thread nD τ).loc main_arg1)

/-- The region's first input array is the image array reshaped. -/
theorem V_image (c : Dev nD) :
    (V m c main_v0 : S64x768x1024.Idx → EReal)
      = shapeCast S64x768x1024 (m ((c : Thread nD τ).loc main_arg0)) shapeCasts_S64x768x32x32_S64x768x1024 := by
  show StableHlo.after hostOps0 (fun b => m (c, b)) (Proc.devRef .tc main_v0) = _
  after_results
  rfl

/-- Entry (b, c, n) of the region's first input array is channel c of the column at position n of image b. -/
theorem V_image_apply (c : Dev nD) (b : Fin 64) (ch : Fin 768) (n : Fin 1024) :
    (V m c main_v0 : S64x768x1024.Idx → EReal) (ix3 b ch n) = column (argZ m c) b n ch := by
  rw [V_image]
  unfold column
  refine shapeCast_apply _ shapeCasts_S64x768x32x32_S64x768x1024 (ix3 b ch n) (ix4 b ch (rowOf n) (colOfPos n)) ?_
  rw [Shape.rowMajor_val_four, Shape.rowMajor_val_three]
  show ((b.val * 768 + ch.val) * 32 + n.val / 32) * 32 + n.val % 32 = (b.val * 768 + ch.val) * 1024 + n.val
  omega

/-- The region's second input array is the normalised memory, computed as the reference computes it. -/
theorem V_memNormed (c : Dev nD) :
    (V m c main_v8 : S100x768.Idx → EReal)
      = Cert.ReferenceIdeal.Read.val_main_v17 (F := Ideal) (m ((c : Thread nD τ).loc main_arg1)) := by
  show StableHlo.after hostOps0 (fun b => m (c, b)) (Proc.devRef .tc main_v8) = _
  after_results
  rfl

/-- Entry (j, ch) of the region's second input array is memory row j divided by its clipped norm, at channel ch. -/
theorem V_memNormed_apply (c : Dev nD) (j : Fin 100) (ch : Fin 768) :
    (V m c main_v8 : S100x768.Idx → EReal) (ix2 j ch) = rowNormed (memRows (argA m c)) j ch := by
  rw [V_memNormed]
  exact Ref.mem_apply (m ((c : Thread nD τ).loc main_arg1)) j ch

/-- The region's third input array is the memory transposed. -/
theorem V_memT (c : Dev nD) :
    (V m c main_v9 : S768x100.Idx → EReal)
      = transpose S768x100 [1, 0] (m ((c : Thread nD τ).loc main_arg1)) transposes_S100x768_S768x100_1_0 := by
  show StableHlo.after hostOps0 (fun b => m (c, b)) (Proc.devRef .tc main_v9) = _
  after_results

/-- Entry (ch, j) of the region's third input array is the memory at (j, ch). -/
theorem V_memT_apply (c : Dev nD) (ch : Fin 768) (j : Fin 100) :
    (V m c main_v9 : S768x100.Idx → EReal) (ix2 ch j) = argA m c (ix2 j ch) := by
  rw [V_memT]
  exact transpose_ix2_apply _ transposes_S100x768_S768x100_1_0 ch j

end Cert.Attn.Host

end
-- ==== Proof.KernelValue.lean ====
/-
  The kernel's two results after the run, as the whole-array functions.

  The grid has one point per image. At point t the body sees block t of the reshaped image array (the 768×1024 matrix of
  image t) and the whole of the normalised and of the transposed memory, and writes block t of each output array: the
  reconstruction of image t (768×1024) and its weights (1024×100). The blocks of each output tile its array (image b's
  entries lie in block b), so each array ends as one function of the argument arrays. After the region the host reshapes
  the reconstruction (64, 768, 1024) back to (64, 768, 32, 32): position n = h·32 + w.
-/
import proofs.«126204_j42537356100301_2_alg».proof.Proof.Gen.KernelIdeal.Frame
import Idealize.ShloMosaic.Lib.StableHlo.Run
import Idealize.ShloMosaic.Lib.Pipeline.Value
import Idealize.ShloMosaic.Lib.ValueIdx
import proofs.«126204_j42537356100301_2_alg».proof.Proof.KernelBody
import proofs.«126204_j42537356100301_2_alg».proof.Proof.KernelHost
import proofs.«126204_j42537356100301_2_alg».proof.Proof.Whole

noncomputable section

open scoped BigOperators

namespace Cert.Attn.KValue

open Cert.KernelIdeal Cert.KernelIdeal.Gen Idealize.ShloMosaic Idealize.ShloMosaic.TcCoe Idealize.ShloMosaic.ValueIdx
open Idealize.SL.Sem Idealize.ShloMosaic.StableHlo Cert.Attn Cert.Attn.Host
open Idealize.ShloMosaic.Pipeline (Dat)

variable (m : (ℓ : Loc nD τ sig) → Buf (Elt Ideal) ℓ) (ρ : Dev nD → PrngReg)

/-! ## One grid point: the body's results from blocks that hold image b and the two memories -/

/-- The weights the body computes, at (memory row j, position n), when its blocks hold image b's columns and the normalised
    memory. -/
theorem weights_point (Z : SZ.Idx → EReal) (A : SA.Idx → EReal) (b : Fin 64)
    (x0 : Vec Ideal S1x768x1024 .f32) (x1 : Vec Ideal S100x768 .f32)
    (h0 : ∀ (ch : Fin 768) (n : Fin 1024), x0 (ix3 (0 : Fin 1) ch n) = column Z b n ch)
    (h1 : ∀ (j : Fin 100) (ch : Fin 768), x1 (ix2 j ch) = rowNormed (memRows A) j ch)
    (j : Fin 100) (n : Fin 1024) :
    k0_pay3 (F := Ideal) x0 x1 (ix2 j n) = weights Z A b n j := by
  rw [Body.pay3_apply]
  unfold weights
  have e0 : (fun ch : Fin 768 => x0 (ix3 (0 : Fin 1) ch n)) = column Z b n := funext fun ch => h0 ch n
  have e1 : (fun (j' : Fin 100) (ch : Fin 768) => x1 (ix2 j' ch)) = rowNormed (memRows A) :=
    funext fun j' => funext fun ch => h1 j' ch
  rw [e0, e1]

/-- The second output's block at (position n, memory row j). -/
theorem out4_point (Z : SZ.Idx → EReal) (A : SA.Idx → EReal) (b : Fin 64)
    (x0 : Vec Ideal S1x768x1024 .f32) (x1 : Vec Ideal S100x768 .f32)
    (h0 : ∀ (ch : Fin 768) (n : Fin 1024), x0 (ix3 (0 : Fin 1) ch n) = column Z b n ch)
    (h1 : ∀ (j : Fin 100) (ch : Fin 768), x1 (ix2 j ch) = rowNormed (memRows A) j ch)
    (u : Fin 1) (n : Fin 1024) (j : Fin 100) :
    k0_pay2 (F := Ideal) (k0_pay3 x0 x1) (ix3 u n j) = weights Z A b n j := by
  rw [Body.pay2_apply]
  exact weights_point Z A b x0 x1 h0 h1 j n

/-- The first output's block at (channel ch, position n). -/
theorem out3_point (Z : SZ.Idx → EReal) (A : SA.Idx → EReal) (b : Fin 64)
    (x0 : Vec Ideal S1x768x1024 .f32) (x1 : Vec Ideal S100x768 .f32) (x2 : Vec Ideal S768x100 .f32)
    (h0 : ∀ (ch : Fin 768) (n : Fin 1024), x0 (ix3 (0 : Fin 1) ch n) = column Z b n ch)
    (h1 : ∀ (j : Fin 100) (ch : Fin 768), x1 (ix2 j ch) = rowNormed (memRows A) j ch)
    (h2 : ∀ (ch : Fin 768) (j : Fin 100), x2 (ix2 ch j) = A (ix2 j ch))
    (u : Fin 1) (ch : Fin 768) (n : Fin 1024) :
    k0_pay1 (F := Ideal) (k0_pay3 x0 x1) (k0_pay4 x2) (ix3 u ch n) = recon Z A b ch n := by
  rw [Body.pay1_apply, Body.pay4_eq]
  unfold recon
  refine Finset.sum_congr rfl fun j _ => ?_
  rw [h2, weights_point Z A b x0 x1 h0 h1 j n]

/-! ## The blocks of the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the image and both outputs move with the grid point along their first axis; the
    two memories stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem hN : cfg0.N = 64 := N_0

/-- The grid point as an image number. -/
def imageOf (t : Fin cfg0.N) : Fin 64 := ⟨t.val, lt_of_lt_of_eq t.isLt hN⟩

/-- The image block at point t holds image t's columns. -/
theorem iblk0_apply (c : Dev nD) (t : Fin cfg0.N) (ch : Fin 768) (n : Fin 1024) :
    iblk m c 0 t (ix3 (0 : Fin 1) ch n) = column (argZ m c) (imageOf t) n ch := by
  obtain ⟨e0, e1, e2, -⟩ := idx_facts t
  show (V m c main_v0 : S64x768x1024.Idx → EReal) (((cfg0.win 0).blk t).view.emb (ix3 (0 : Fin 1) ch n)) = _
  have e : ((cfg0.win 0).blk t).view.emb (ix3 (0 : Fin 1) ch n) = ix3 (imageOf t) ch n := by
    funext a; apply Fin.ext
    match a with
    | ⟨0, _⟩ => show win0_0.index t (0 : Fin 3) * 1 + 1 * 0 = t.val; omega
    | ⟨1, _⟩ => show win0_0.index t (1 : Fin 3) * 768 + 1 * ch.val = ch.val; omega
    | ⟨2, _⟩ => show win0_0.index t (2 : Fin 3) * 1024 + 1 * n.val = n.val; omega
  exact (congrArg (V m c main_v0 : S64x768x1024.Idx → EReal) e).trans (V_image_apply m c (imageOf t) ch n)

/-- The normalised-memory block at every point is the whole normalised memory. -/
theorem iblk1_apply (c : Dev nD) (t : Fin cfg0.N) (j : Fin 100) (ch : Fin 768) :
    iblk m c 1 t (ix2 j ch) = rowNormed (memRows (argA m c)) j ch := by
  obtain ⟨-, -, -, e0, e1, -⟩ := idx_facts t
  show (V m c main_v8 : S100x768.Idx → EReal) (((cfg0.win 1).blk t).view.emb (ix2 j ch)) = _
  have e : ((cfg0.win 1).blk t).view.emb (ix2 j ch) = ix2 j ch := by
    funext a; apply Fin.ext
    match a with
    | ⟨0, _⟩ => show win0_1.index t (0 : Fin 2) * 100 + 1 * j.val = j.val; omega
    | ⟨1, _⟩ => show win0_1.index t (1 : Fin 2) * 768 + 1 * ch.val = ch.val; omega
  exact (congrArg (V m c main_v8 : S100x768.Idx → EReal) e).trans (V_memNormed_apply m c j ch)

/-- The transposed-memory block at every point is the whole transposed memory. -/
theorem iblk2_apply (c : Dev nD) (t : Fin cfg0.N) (ch : Fin 768) (j : Fin 100) :
    iblk m c 2 t (ix2 ch j) = argA m c (ix2 j ch) := by
  obtain ⟨-, -, -, -, -, e0, e1, -⟩ := idx_facts t
  show (V m c main_v9 : S768x100.Idx → EReal) (((cfg0.win 2).blk t).view.emb (ix2 ch j)) = _
  have e : ((cfg0.win 2).blk t).view.emb (ix2 ch j) = ix2 ch j := by
    funext a; apply Fin.ext
    match a with
    | ⟨0, _⟩ => show win0_2.index t (0 : Fin 2) * 768 + 1 * ch.val = ch.val; omega
    | ⟨1, _⟩ => show win0_2.index t (1 : Fin 2) * 100 + 1 * j.val = j.val; omega
  exact (congrArg (V m c main_v9 : S768x100.Idx → EReal) e).trans (V_memT_apply m c ch j)

/-! ## The second output: the weights -/

/-- What point t writes back to the weights array is block t of the weights function. -/
theorem flushed4_eq (c : Dev nD) (t : Fin cfg0.N) :
    (dats m 0 c).flushed 4 t = ((cfg0.win 4).blk t).view.read (Elt Ideal) (G1 (argZ m c) (argA m c)) := by
  show (cfg0.win 4).cut (grid0.coords t) ((dats m 0 c).after 4 t) = _
  rw [after0_4]
  unfold out0_4
  rw [View.canon_unit_zero hz3]
  simp only [View.ld_unit_zero (S := S1x768x1024) hz3, View.ld_unit_zero (S := S100x768) hz2]
  obtain ⟨-, -, -, -, -, -, -, -, -, -, e0, e1, e2⟩ := idx_facts t
  funext y
  obtain ⟨u, n, j, rfl⟩ : ∃ (u : Fin 1) (n : Fin 1024) (j : Fin 100), y = ix3 u n j := ⟨y 0, y 1, y 2, eq_ix3 y⟩
  show k0_pay2 (F := Ideal) (k0_pay3 (iblk m c 0 t) (iblk m c 1 t)) (ix3 u n j)
      = G1 (argZ m c) (argA m c) (((cfg0.win 4).blk t).view.emb (ix3 u n j))
  have e : ((cfg0.win 4).blk t).view.emb (ix3 u n j) = ix3 (imageOf t) n j := by
    funext a; apply Fin.ext
    have hu : u.val = 0 := by omega
    match a with
    | ⟨0, _⟩ => show win0_4.index t (0 : Fin 3) * 1 + 1 * u.val = t.val; omega
    | ⟨1, _⟩ => show win0_4.index t (1 : Fin 3) * 1024 + 1 * n.val = n.val; omega
    | ⟨2, _⟩ => show win0_4.index t (2 : Fin 3) * 100 + 1 * j.val = j.val; omega
  rw [e]
  exact out4_point (argZ m c) (argA m c) (imageOf t) (iblk m c 0 t) (iblk m c 1 t)
    (iblk0_apply m c t) (iblk1_apply m c t) u n j

/-- An index of the weights array is in point t's block iff each coordinate is in the block's range. -/
theorem mem_blk4 (t : Fin cfg0.N) (i : S64x1024x100.Idx) :
    i ∈ ((cfg0.win 4).blk t).view.set ↔ ∀ a : Fin 3, win0_4.index t a * S1x1024x100.size a ≤ (i a).val
      ∧ (i a).val < win0_4.index t a * S1x1024x100.size a + S1x1024x100.size a := by
  show i ∈ ((View.whole main_v10_1).slice (win0_4.rect t)).set ↔ _
  rw [View.set_slice_whole, Rect.mem_set_unit]
  exact Iff.rfl

/-- Every index of the weights array lies in the block of its image's point. -/
theorem cover4 (i : S64x1024x100.Idx) :
    ∃ t : Fin cfg0.N, (cfg0.win 4).flush t = true ∧ i ∈ ((cfg0.win 4).blk t).view.set := by
  have h0 : (i 0).val < 64 := (i 0).isLt
  have h1 : (i 1).val < 1024 := (i 1).isLt
  have h2 : (i 2).val < 100 := (i 2).isLt
  refine ⟨⟨(i 0).val, lt_of_lt_of_eq h0 hN.symm⟩, flush0_4 _, ?_⟩
  obtain ⟨-, -, -, -, -, -, -, -, -, -, e0, e1, e2⟩ := idx_facts ⟨(i 0).val, lt_of_lt_of_eq h0 hN.symm⟩
  rw [mem_blk4]
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    rw [e0]
    show (i 0).val * 1 ≤ (i 0).val ∧ (i 0).val < (i 0).val * 1 + 1
    constructor <;> omega
  | ⟨1, _⟩ =>
    show win0_4.index ⟨(i 0).val, _⟩ (1 : Fin 3) * 1024 ≤ (i 1).val ∧ (i 1).val < win0_4.index ⟨(i 0).val, _⟩ (1 : Fin 3) * 1024 + 1024
    rw [e1]; constructor <;> omega
  | ⟨2, _⟩ =>
    show win0_4.index ⟨(i 0).val, _⟩ (2 : Fin 3) * 100 ≤ (i 2).val ∧ (i 2).val < win0_4.index ⟨(i 0).val, _⟩ (2 : Fin 3) * 100 + 100
    rw [e2]; constructor <;> omega

/-- The weights array after the run. -/
theorem final4 (c : Dev nD) : (dats m 0 c).arrAt 4 cfg0.N = G1 (argZ m c) (argA m c) :=
  (dats m 0 c).arrAt_eq_of_cover 4 (G1 (argZ m c) (argA m c)) (fun t _ => flushed4_eq m c t) cover4

/-! ## The first output: the reconstruction, before the host's reshape -/

/-- The reconstruction as (image, channel, position). -/
def R3 (Z : SZ.Idx → EReal) (A : SA.Idx → EReal) : S64x768x1024.Idx → EReal := fun i => recon Z A (i 0) (i 1) (i 2)

/-- What point t writes back to the reconstruction array is block t of the reconstruction. -/
theorem flushed3_eq (c : Dev nD) (t : Fin cfg0.N) :
    (dats m 0 c).flushed 3 t = ((cfg0.win 3).blk t).view.read (Elt Ideal) (R3 (argZ m c) (argA m c)) := by
  show (cfg0.win 3).cut (grid0.coords t) ((dats m 0 c).after 3 t) = _
  rw [after0_3]
  unfold out0_3
  rw [View.canon_unit_zero hz3]
  simp only [View.ld_unit_zero (S := S1x768x1024) hz3, View.ld_unit_zero (S := S100x768) hz2, View.ld_unit_zero (S := S768x100) hz2]
  obtain ⟨-, -, -, -, -, -, -, e0, e1, e2, -⟩ := idx_facts t
  funext y
  obtain ⟨u, ch, n, rfl⟩ : ∃ (u : Fin 1) (ch : Fin 768) (n : Fin 1024), y = ix3 u ch n := ⟨y 0, y 1, y 2, eq_ix3 y⟩
  show k0_pay1 (F := Ideal) (k0_pay3 (iblk m c 0 t) (iblk m c 1 t)) (k0_pay4 (iblk m c 2 t)) (ix3 u ch n)
      = R3 (argZ m c) (argA m c) (((cfg0.win 3).blk t).view.emb (ix3 u ch n))
  have e : ((cfg0.win 3).blk t).view.emb (ix3 u ch n) = ix3 (imageOf t) ch n := by
    funext a; apply Fin.ext
    have hu : u.val = 0 := by omega
    match a with
    | ⟨0, _⟩ => show win0_3.index t (0 : Fin 3) * 1 + 1 * u.val = t.val; omega
    | ⟨1, _⟩ => show win0_3.index t (1 : Fin 3) * 768 + 1 * ch.val = ch.val; omega
    | ⟨2, _⟩ => show win0_3.index t (2 : Fin 3) * 1024 + 1 * n.val = n.val; omega
  rw [e]
  exact out3_point (argZ m c) (argA m c) (imageOf t) (iblk m c 0 t) (iblk m c 1 t) (iblk m c 2 t)
    (iblk0_apply m c t) (iblk1_apply m c t) (iblk2_apply m c t) u ch n

/-- An index of the reconstruction array is in point t's block iff each coordinate is in the block's range. -/
theorem mem_blk3 (t : Fin cfg0.N) (i : S64x768x1024.Idx) :
    i ∈ ((cfg0.win 3).blk t).view.set ↔ ∀ a : Fin 3, win0_3.index t a * S1x768x1024.size a ≤ (i a).val
      ∧ (i a).val < win0_3.index t a * S1x768x1024.size a + S1x768x1024.size a := by
  show i ∈ ((View.whole main_v10_0).slice (win0_3.rect t)).set ↔ _
  rw [View.set_slice_whole, Rect.mem_set_unit]
  exact Iff.rfl

/-- Every index of the reconstruction array lies in the block of its image's point. -/
theorem cover3 (i : S64x768x1024.Idx) :
    ∃ t : Fin cfg0.N, (cfg0.win 3).flush t = true ∧ i ∈ ((cfg0.win 3).blk t).view.set := by
  have h0 : (i 0).val < 64 := (i 0).isLt
  have h1 : (i 1).val < 768 := (i 1).isLt
  have h2 : (i 2).val < 1024 := (i 2).isLt
  refine ⟨⟨(i 0).val, lt_of_lt_of_eq h0 hN.symm⟩, flush0_3 _, ?_⟩
  obtain ⟨-, -, -, -, -, -, -, e0, e1, e2, -⟩ := idx_facts ⟨(i 0).val, lt_of_lt_of_eq h0 hN.symm⟩
  rw [mem_blk3]
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    rw [e0]
    show (i 0).val * 1 ≤ (i 0).val ∧ (i 0).val < (i 0).val * 1 + 1
    constructor <;> omega
  | ⟨1, _⟩ =>
    show win0_3.index ⟨(i 0).val, _⟩ (1 : Fin 3) * 768 ≤ (i 1).val ∧ (i 1).val < win0_3.index ⟨(i 0).val, _⟩ (1 : Fin 3) * 768 + 768
    rw [e1]; constructor <;> omega
  | ⟨2, _⟩ =>
    show win0_3.index ⟨(i 0).val, _⟩ (2 : Fin 3) * 1024 ≤ (i 2).val ∧ (i 2).val < win0_3.index ⟨(i 0).val, _⟩ (2 : Fin 3) * 1024 + 1024
    rw [e2]; constructor <;> omega

/-- The reconstruction array after the region. -/
theorem final3 (c : Dev nD) : (dats m 0 c).arrAt 3 cfg0.N = R3 (argZ m c) (argA m c) :=
  (dats m 0 c).arrAt_eq_of_cover 3 (R3 (argZ m c) (argA m c)) (fun t _ => flushed3_eq m c t) cover3

/-! ## The host's reshape after the region, and the run -/

/-- The first result: the reconstruction array reshaped to (image, channel, row, column). -/
theorem tail_eq (c : Dev nD) :
    Pipeline.afterTail₀ cfgs (dats m) 0 (V0 m) [hostOps1] c main_v11 = G0 (argZ m c) (argA m c) := by
  unfold Pipeline.afterTail₀
  show StableHlo.after hostOps1 _ (Proc.devRef .tc main_v11) = _
  after_results
  rw [(Pipeline.withArrays_arr spec0 launch0.win.arr_inj c _ _ 3).trans (final3 m c)]
  funext i
  obtain ⟨b, ch, h, w, rfl⟩ : ∃ (b : Fin 64) (ch : Fin 768) (h w : Fin 32), i = ix4 b ch h w := ⟨i 0, i 1, i 2, i 3, eq_ix4 i⟩
  refine (shapeCast_apply _ shapeCasts_S64x768x1024_S64x768x32x32 (ix4 b ch h w) (ix3 b ch (posOf h w)) ?_).trans rfl
  rw [Shape.rowMajor_val_four, Shape.rowMajor_val_three]
  show (b.val * 768 + ch.val) * 1024 + (h.val * 32 + w.val) = ((b.val * 768 + ch.val) * 32 + h.val) * 32 + w.val
  omega

/-- The kernel's run: every weakly fair execution terminates with the first result at the reconstruction, the second at
    the weights, and the arguments unchanged. -/
theorem run : θ_run defs (onTc (τ := τ) (main (F := Ideal))) ⟨m, fun _ => 0, ρ⟩ fun r => ∀ c : Dev nD,
      r.2.mem ((c.tc : Thread nD τ).loc main_v11) = G0 (argZ m c) (argA m c)
      ∧ r.2.mem ((c.tc : Thread nD τ).loc main_v10_1) = G1 (argZ m c) (argA m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 (Pipeline.mem_restRefs_of main_v11 (by decide) (by decide))).trans (tail_eq m c),
      ((h c).1 4).trans (final4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Attn.KValue

end
-- ==== Proof.Finite.lean ====
/-
  The precondition read back: an array all of whose entries have absolute value below plus infinity has only real-valued
  entries. On the extended reals |x| = max(x, -x) is plus infinity exactly at the two infinities, so |x| < +∞ leaves the
  real numbers.
-/
import proofs.«126204_j42537356100301_2_alg».proof.Proof.Gen.Pre_finite_inputs
import Idealize.ShloMosaic.Lib.ReduceAll
import Idealize.ShloMosaic.Lib.ValueIdx
import Idealize.ShloMosaic.PureOps.Ideal.Laws
import proofs.«126204_j42537356100301_2_alg».proof.Proof.LibRealValued

noncomputable section

namespace Cert.Attn.Finite

open Idealize.ShloMosaic Cert.RealValued

/-- The pattern of plus infinity denotes the top element. -/
theorem ofBits_posInf : Ideal.ofBits .f32 0x7F800000#32 = ⊤ := by
  simp [Ideal.ofBits, Ideal.ieee]

/-- An extended real whose absolute value compares below plus infinity is a real number. -/
theorem isReal_of_abs_lt_inf (x : EReal)
    (h : Ideal.cmp .olt (max x (-x)) (Ideal.ofBits .f32 0x7F800000#32) = 1#1) : IsReal x := by
  rw [ofBits_posInf] at h
  have hlt : max x (-x) < ⊤ := by
    by_contra hn
    simp [Ideal.cmp, hn] at h
  induction x using EReal.rec with
  | bot => exact absurd hlt (by simp)
  | coe r => exact ⟨r, rfl⟩
  | top => exact absurd hlt (by simp)

instance : Subsingleton Cert.Pre_finite_inputs.S_.Idx := ⟨fun a b => funext fun d => d.elim0⟩

/-- Under the precondition every entry of both argument arrays is a real number. -/
theorem isReal_of_pre (Z : FVec Ideal Cert.Pre_finite_inputs.S64x768x32x32 .f32) (A : FVec Ideal Cert.Pre_finite_inputs.S100x768 .f32)
    (h : Cert.Pre_finite_inputs.fn (F := Ideal) Z A = fun _ => 1#1) :
    (∀ i, IsReal (Z i)) ∧ (∀ i, IsReal (A i)) := by
  have h0 := congrFun h ValueIdx.ix0
  dsimp only [Cert.Pre_finite_inputs.fn] at h0
  obtain ⟨hz, ha⟩ := IntOp.andi_eq_one.1 h0
  constructor
  · intro i
    exact isReal_of_abs_lt_inf (Z i) (Host.reduce_andi_all _ _ _ _ _ hz i)
  · intro i
    exact isReal_of_abs_lt_inf (A i) (Host.reduce_andi_all _ _ _ _ _ ha i)

end Cert.Attn.Finite

end
-- ==== Proof.lean ====
/-
  A memory-attention step over 64 images of 768 channels by 32×32 positions, against a memory of 100 rows of 768 channels.

  For each position the column of 768 channels is compared with the memory rows, each row divided by its clipped Euclidean
  norm; the similarity scores go through a softmax over the rows, a hard shrinkage around 1/100 and a renormalisation; the
  results are these weights and the reconstruction Σ_m A(m, c) · weights(m) of every channel at every position.

  The two programs differ in one arrangement only. One divides the column by its clipped norm and then takes the dot products
  with the normalised memory rows; the other takes the dot products of the raw column and multiplies each by the reciprocal
  of the clipped norm. On real numbers the clipped norm is a positive real, and a positive real factor distributes over the
  finite sum of the dot product, so the scores agree; everything after the scores is the same expression read along a
  different axis, and the reconstruction's products commute. Finiteness of the inputs is used exactly there: on the extended
  reals a factor does not distribute over a sum that meets both infinities.

  The layouts differ too: one side works on each image as channels by positions, one grid point per image, and lays the
  weights out by a transpose inside the body; the other works on positions by channels throughout. Position n of an image is
  row n / 32 and column n % 32 of the image array on both sides.
-/
import proofs.«126204_j42537356100301_2_alg».proof.Defs
import proofs.«126204_j42537356100301_2_alg».proof.Proof.Gen.Kernel
import proofs.«126204_j42537356100301_2_alg».proof.Proof.Gen.Kernel.Skeleton
import proofs.«126204_j42537356100301_2_alg».proof.Proof.Gen.Kernel.Launch
import proofs.«126204_j42537356100301_2_alg».proof.Proof.Gen.Kernel.Points
import proofs.«126204_j42537356100301_2_alg».proof.Proof.Gen.Kernel.Frame
import proofs.«126204_j42537356100301_2_alg».proof.Proof.Gen.KernelIdeal
import proofs.«126204_j42537356100301_2_alg».proof.Proof.Gen.KernelIdeal.Skeleton
import proofs.«126204_j42537356100301_2_alg».proof.Proof.Gen.KernelIdeal.Launch
import proofs.«126204_j42537356100301_2_alg».proof.Proof.Gen.KernelIdeal.Points
import proofs.«126204_j42537356100301_2_alg».proof.Proof.Gen.KernelIdeal.Frame
import proofs.«126204_j42537356100301_2_alg».proof.Proof.Gen.ReferenceIdeal
import proofs.«126204_j42537356100301_2_alg».proof.Proof.Gen.ReferenceIdeal.Run
import proofs.«126204_j42537356100301_2_alg».proof.Proof.Gen.ReferenceIdeal.Read
import proofs.«126204_j42537356100301_2_alg».proof.Proof.Gen.Pre_finite_inputs
import proofs.«126204_j42537356100301_2_alg».proof.Proof.KernelValue
import proofs.«126204_j42537356100301_2_alg».proof.Proof.RefValue
import proofs.«126204_j42537356100301_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, with the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the two (finite) argument arrays, both idealized programs end with the reconstruction and
    the weights of those arrays: the kernel by its blocks, the reference by its stages and the distributive law. -/
theorem algebraic : Cert.algebraic_KernelIdeal_ReferenceIdeal := by
  intro m ρ m' ρ' hpre hagree
  refine ⟨_, _, Cert.Attn.KValue.run m ρ, ?_⟩
  refine (θ_run Cert.ReferenceIdeal.defs _ _).mono (fun r h c => ?_) (Cert.ReferenceIdeal.Value.run (F := Ideal) m' ρ')
  obtain ⟨hZ, hA⟩ := Cert.Attn.Finite.isReal_of_pre _ _ (hpre c)
  refine ⟨(h c).1.trans ?_, (h c).2.1.trans ?_, (h c).2.2.1, (h c).2.2.2⟩
  · rw [Cert.ReferenceIdeal.Read.val_main_v46_eq, (hagree c).1, (hagree c).2]
    exact Cert.Attn.Ref.out0_eq _ _ hZ hA
  · rw [Cert.ReferenceIdeal.Read.val_main_v43_eq, (hagree c).1, (hagree c).2]
    exact Cert.Attn.Ref.out1_eq _ _ hZ hA

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
